-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8 : Shape := ⟨3, ![4, 64, 8]⟩
abbrev S4x256x256x2 : Shape := ⟨4, ![4, 256, 256, 2]⟩
abbrev S_ : Shape := ⟨0, ![]⟩

class Facts : Prop where
  bcast_S_S4x64x8 : S_.BroadcastsInDim S4x64x8 (![] : Fin 0 → Fin S4x64x8.rank)
  reducesTo_S4x64x8_S_d0_1_2 : S4x64x8.ReducesTo [0, 1, 2] S_
  h_S_ : 0 < S_.numel
  bcast_S_S4x256x256x2 : S_.BroadcastsInDim S4x256x256x2 (![] : Fin 0 → Fin S4x256x256x2.rank)
  reducesTo_S4x256x256x2_S_d0_1_2_3 : S4x256x256x2.ReducesTo [0, 1, 2, 3] S_

variable [Facts]

def fn {F : FTy → Type} [FloatOps F] (main_arg0 : FVec F S4x64x8 .f32) (main_arg1 : FVec F S4x256x256x2 .f32) : IVec S_ 1 :=
  let main_v0 : FVec F S4x64x8 .f32 := Host.absf main_arg0
  let main_cst : FVec F S_ .f32 := constant S_ .f32 0x7F800000#32
  let main_v1 : FVec F S4x64x8 .f32 := broadcastInDim S4x64x8 ![] bcast_S_S4x64x8 main_cst
  let main_v2 : IVec S4x64x8 1 := cmpf .olt main_v0 main_v1
  let main_c : IVec S_ 1 := constantI S_ 1 1#1
  let main_v3 : IVec S_ 1 := (fun x v => Host.reduce IntOp.andi x v reducesTo_S4x64x8_S_d0_1_2 h_S_) main_v2 main_c
  let main_v4 : FVec F S4x256x256x2 .f32 := Host.absf main_arg1
  let main_cst_0 : FVec F S_ .f32 := constant S_ .f32 0x7F800000#32
  let main_v5 : FVec F S4x256x256x2 .f32 := broadcastInDim S4x256x256x2 ![] bcast_S_S4x256x256x2 main_cst_0
  let main_v6 : IVec S4x256x256x2 1 := cmpf .olt main_v4 main_v5
  let main_c_1 : IVec S_ 1 := constantI S_ 1 1#1
  let main_v7 : IVec S_ 1 := (fun x v => Host.reduce IntOp.andi x v reducesTo_S4x256x256x2_S_d0_1_2_3 h_S_) main_v6 main_c_1
  let main_v8 : IVec S_ 1 := andi main_v3 main_v7
  main_v8
-- ==== Kernel.lean ====
abbrev S4x64x8 : Shape := ⟨3, ![4, 64, 8]⟩
abbrev S4x256x256x2 : Shape := ⟨4, ![4, 256, 256, 2]⟩
abbrev S4x256x256x4 : Shape := ⟨4, ![4, 256, 256, 4]⟩
abbrev S1x64x8 : Shape := ⟨3, ![1, 64, 8]⟩
abbrev S1x16x256x2 : Shape := ⟨4, ![1, 16, 256, 2]⟩
abbrev S1x16x256x4 : Shape := ⟨4, ![1, 16, 256, 4]⟩
abbrev S64x8 : Shape := ⟨2, ![64, 8]⟩
abbrev S64x1 : Shape := ⟨2, ![64, 1]⟩
abbrev S64 : Shape := ⟨1, ![64]⟩
abbrev S64x1x1 : Shape := ⟨3, ![64, 1, 1]⟩
abbrev S16x256x2 : Shape := ⟨3, ![16, 256, 2]⟩
abbrev S16x256x1 : Shape := ⟨3, ![16, 256, 1]⟩
abbrev S16x256 : Shape := ⟨2, ![16, 256]⟩
abbrev S1x16x256 : Shape := ⟨3, ![1, 16, 256]⟩
abbrev S64x16x256 : Shape := ⟨3, ![64, 16, 256]⟩
abbrev S16x256x4 : Shape := ⟨3, ![16, 256, 4]⟩

abbrev nBuf : Space → Nat
  | .hbm => 3
  | .vmem => 6
  | .smem => 0
  | _ => 0

abbrev bufTy : (tb : Table) → Fin (tcTables nBuf tb) → BufTy
  | .hbm, ⟨0, _⟩ => ⟨S4x64x8, .f32⟩
  | .hbm, ⟨1, _⟩ => ⟨S4x256x256x2, .f32⟩
  | .hbm, ⟨2, _⟩ => ⟨S4x256x256x4, .f32⟩
  | .local _ .vmem, ⟨0, _⟩ => ⟨S1x64x8, .f32⟩
  | .local _ .vmem, ⟨1, _⟩ => ⟨S1x64x8, .f32⟩
  | .local _ .vmem, ⟨2, _⟩ => ⟨S1x16x256x2, .f32⟩
  | .local _ .vmem, ⟨3, _⟩ => ⟨S1x16x256x2, .f32⟩
  | .local _ .vmem, ⟨4, _⟩ => ⟨S1x16x256x4, .f32⟩
  | .local _ .vmem, ⟨5, _⟩ => ⟨S1x16x256x4, .f32⟩
  | _, _ => ⟨S4x64x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  slices_S64x8_o0_0_S64x1 : S64x8.Slices ![0, 0] S64x1
  shapeCasts_S64x1_S64 : S64x1.ShapeCasts S64
  slices_S64x8_o0_1_S64x1 : S64x8.Slices ![0, 1] S64x1
  slices_S64x8_o0_2_S64x1 : S64x8.Slices ![0, 2] S64x1
  slices_S64x8_o0_3_S64x1 : S64x8.Slices ![0, 3] S64x1
  slices_S64x8_o0_6_S64x1 : S64x8.Slices ![0, 6] S64x1
  slices_S64x8_o0_7_S64x1 : S64x8.Slices ![0, 7] S64x1
  shapeCasts_S64_S64x1x1 : S64.ShapeCasts S64x1x1
  inb_S1x16x256x2_S1x16x256x2_0_0_0_0 : ∀ a, (![0, 0, 0, 0] : Fin 4 → Nat) a + S1x16x256x2.size a ≤ S1x16x256x2.size a
  h_S1x16x256x2 : 0 < S1x16x256x2.numel
  shapeCasts_S1x16x256x2_S16x256x2 : S1x16x256x2.ShapeCasts S16x256x2
  slices_S16x256x2_o0_0_0_S16x256x1 : S16x256x2.Slices ![0, 0, 0] S16x256x1
  shapeCasts_S16x256x1_S16x256 : S16x256x1.ShapeCasts S16x256
  slices_S16x256x2_o0_0_1_S16x256x1 : S16x256x2.Slices ![0, 0, 1] S16x256x1
  shapeCasts_S16x256_S1x16x256 : S16x256.ShapeCasts S1x16x256
  broadcasts_S1x16x256_S64x16x256 : S1x16x256.Broadcasts S64x16x256
  broadcasts_S64x1x1_S64x16x256 : S64x1x1.Broadcasts S64x16x256
  reduces_S64x16x256_S16x256 : S64x16x256.Reduces [0] S16x256
  shapeCasts_S16x256_S16x256x1 : S16x256.ShapeCasts S16x256x1
  concatenates_S16x256x1_S16x256x1_S16x256x1_S16x256x1_S16x256x4_d2 : Shape.Concatenates [S16x256x1, S16x256x1, S16x256x1, S16x256x1] S16x256x4 2
  inb_S1x16x256x4_S1x16x256x4_0_0_0_0 : ∀ a, (![0, 0, 0, 0] : Fin 4 → Nat) a + S1x16x256x4.size a ≤ S1x16x256x4.size a
  h_S1x16x256x4 : 0 < S1x16x256x4.numel
  shapeCasts_S1x16x256x4_S16x256x4 : S1x16x256x4.ShapeCasts S16x256x4
  shapeCasts_S16x256x4_S1x16x256x4 : S16x256x4.ShapeCasts S1x16x256x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8.size a ≤ S4x64x8.size a
  hwx0_0 : ∀ i : grid0.Coords, EltTy.bits .f32 = 32 ∨ (Rect.block (s := S4x64x8) S1x64x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x2.size a ≤ S4x256x256x2.size a
  hwx0_1 : ∀ i : grid0.Coords, EltTy.bits .f32 = 32 ∨ (Rect.block (s := S4x256x256x2) S1x16x256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x4.size a ≤ S4x256x256x4.size a
  hwx0_2 : ∀ i : grid0.Coords, EltTy.bits .f32 = 32 ∨ (Rect.block (s := S4x256x256x4) S1x16x256x4.size (cc0_transform_2 i) (hinb0_2 i)).WholeWords (EltTy.packing .f32)

variable [Facts₀]

abbrev win0_0 : Pipeline.Window sig grid0 :=
  Pipeline.Window.ofSpec (Memref.whole main_arg0) S1x64x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x8 : Shape := ⟨3, ![4, 64, 8]⟩
abbrev S4x256x256x2 : Shape := ⟨4, ![4, 256, 256, 2]⟩
abbrev S4x64x1 : Shape := ⟨3, ![4, 64, 1]⟩
abbrev S4x64 : Shape := ⟨2, ![4, 64]⟩
abbrev S4x64x2 : Shape := ⟨3, ![4, 64, 2]⟩
abbrev S4x256x256x1x2 : Shape := ⟨5, ![4, 256, 256, 1, 2]⟩
abbrev S4x1x1x64x2 : Shape := ⟨5, ![4, 1, 1, 64, 2]⟩
abbrev S4x1x1x64x1 : Shape := ⟨5, ![4, 1, 1, 64, 1]⟩
abbrev S4x256x256x64x2 : Shape := ⟨5, ![4, 256, 256, 64, 2]⟩
abbrev S_ : Shape := ⟨0, ![]⟩
abbrev S4x256x256x64 : Shape := ⟨4, ![4, 256, 256, 64]⟩
abbrev S4x256x256x64x1 : Shape := ⟨5, ![4, 256, 256, 64, 1]⟩
abbrev S4x256x256x64x4 : Shape := ⟨5, ![4, 256, 256, 64, 4]⟩
abbrev S4x256x256x4 : Shape := ⟨4, ![4, 256, 256, 4]⟩

abbrev nBuf : Space → Nat
  | .hbm => 106
  | .vmem => 0
  | .smem => 0
  | _ => 0

abbrev bufTy : (tb : Table) → Fin (tcTables nBuf tb) → BufTy
  | .hbm, ⟨0, _⟩ => ⟨S4x64x8, .f32⟩
  | .hbm, ⟨1, _⟩ => ⟨S4x256x256x2, .f32⟩
  | .hbm, ⟨2, _⟩ => ⟨S4x64x1, .f32⟩
  | .hbm, ⟨3, _⟩ => ⟨S4x64, .f32⟩
  | .hbm, ⟨4, _⟩ => ⟨S4x64x1, .f32⟩
  | .hbm, ⟨5, _⟩ => ⟨S4x64, .f32⟩
  | .hbm, ⟨6, _⟩ => ⟨S4x64x1, .f32⟩
  | .hbm, ⟨7, _⟩ => ⟨S4x64, .f32⟩
  | .hbm, ⟨8, _⟩ => ⟨S4x64x1, .f32⟩
  | .hbm, ⟨9, _⟩ => ⟨S4x64, .f32⟩
  | .hbm, ⟨10, _⟩ => ⟨S4x64x1, .f32⟩
  | .hbm, ⟨11, _⟩ => ⟨S4x64, .f32⟩
  | .hbm, ⟨12, _⟩ => ⟨S4x64x1, .f32⟩
  | .hbm, ⟨13, _⟩ => ⟨S4x64, .f32⟩
  | .hbm, ⟨14, _⟩ => ⟨S4x64x1, .f32⟩
  | .hbm, ⟨15, _⟩ => ⟨S4x64, .f32⟩
  | .hbm, ⟨16, _⟩ => ⟨S4x64x1, .f32⟩
  | .hbm, ⟨17, _⟩ => ⟨S4x64, .f32⟩
  | .hbm, ⟨18, _⟩ => ⟨S4x64x1, .f32⟩
  | .hbm, ⟨19, _⟩ => ⟨S4x64x1, .f32⟩
  | .hbm, ⟨20, _⟩ => ⟨S4x64x2, .f32⟩
  | .hbm, ⟨21, _⟩ => ⟨S4x256x256x1x2, .f32⟩
  | .hbm, ⟨22, _⟩ => ⟨S4x1x1x64x2, .f32⟩
  | .hbm, ⟨23, _⟩ => ⟨S4x1x1x64x1, .f32⟩
  | .hbm, ⟨24, _⟩ => ⟨S4x1x1x64x1, .f32⟩
  | .hbm, ⟨25, _⟩ => ⟨S4x1x1x64x1, .f32⟩
  | .hbm, ⟨26, _⟩ => ⟨S4x1x1x64x1, .f32⟩
  | .hbm, ⟨27, _⟩ => ⟨S4x256x256x64x2, .f32⟩
  | .hbm, ⟨28, _⟩ => ⟨S4x256x256x64x2, .f32⟩
  | .hbm, ⟨29, _⟩ => ⟨S4x256x256x64x2, .f32⟩
  | .hbm, ⟨30, _⟩ => ⟨S4x256x256x64x2, .f32⟩
  | .hbm, ⟨31, _⟩ => ⟨S_, .f32⟩
  | .hbm, ⟨32, _⟩ => ⟨S4x256x256x64, .f32⟩
  | .hbm, ⟨33, _⟩ => ⟨S4x256x256x64x1, .f32⟩
  | .hbm, ⟨34, _⟩ => ⟨S4x256x256x64x1, .f32⟩
  | .hbm, ⟨35, _⟩ => ⟨S4x256x256x64x1, .f32⟩
  | .hbm, ⟨36, _⟩ => ⟨S4x1x1x64x1, .f32⟩
  | .hbm, ⟨37, _⟩ => ⟨S4x256x256x64x1, .f32⟩
  | .hbm, ⟨38, _⟩ => ⟨S4x256x256x64x1, .f32⟩
  | .hbm, ⟨39, _⟩ => ⟨S4x256x256x64x1, .f32⟩
  | .hbm, ⟨40, _⟩ => ⟨S_, .f32⟩
  | .hbm, ⟨41, _⟩ => ⟨S4x256x256x64x1, .f32⟩
  | .hbm, ⟨42, _⟩ => ⟨S4x256x256x64x1, .f32⟩
  | .hbm, ⟨43, _⟩ => ⟨S4x1x1x64x1, .f32⟩
  | .hbm, ⟨44, _⟩ => ⟨S4x1x1x64x1, .f32⟩
  | .hbm, ⟨45, _⟩ => ⟨S4x256x256x64x1, .f32⟩
  | .hbm, ⟨46, _⟩ => ⟨S4x256x256x64x1, .f32⟩
  | .hbm, ⟨47, _⟩ => ⟨S4x256x256x64x1, .f32⟩
  | .hbm, ⟨48, _⟩ => ⟨S4x256x256x64x1, .f32⟩
  | .hbm, ⟨49, _⟩ => ⟨S4x256x256x64x1, .f32⟩
  | .hbm, ⟨50, _⟩ => ⟨S4x256x256x64x1, .f32⟩
  | .hbm, ⟨51, _⟩ => ⟨S4x256x256x64x1, .f32⟩
  | .hbm, ⟨52, _⟩ => ⟨S4x1x1x64x1, .f32⟩
  | .hbm, ⟨53, _⟩ => ⟨S4x256x256x64x1, .f32⟩
  | .hbm, ⟨54, _⟩ => ⟨S4x256x256x64x1, .f32⟩
  | .hbm, ⟨55, _⟩ => ⟨S4x256x256x64x1, .f32⟩
  | .hbm, ⟨56, _⟩ => ⟨S4x256x256x64x1, .f32⟩
  | .hbm, ⟨57, _⟩ => ⟨S4x256x256x64x1, .f32⟩
  | .hbm, ⟨58, _⟩ => ⟨S_, .f32⟩
  | .hbm, ⟨59, _⟩ => ⟨S4x256x256x64x1, .f32⟩
  | .hbm, ⟨60, _⟩ => ⟨S4x256x256x64x1, .f32⟩
  | .hbm, ⟨61, _⟩ => ⟨S4x256x256x64x1, .f32⟩
  | .hbm, ⟨62, _⟩ => ⟨S4x256x256x64x1, .f32⟩
  | .hbm, ⟨63, _⟩ => ⟨S4x256x256x64x1, .f32⟩
  | .hbm, ⟨64, _⟩ => ⟨S4x1x1x64x1, .f32⟩
  | .hbm, ⟨65, _⟩ => ⟨S4x1x1x64x1, .f32⟩
  | .hbm, ⟨66, _⟩ => ⟨S4x256x256x64x1, .f32⟩
  | .hbm, ⟨67, _⟩ => ⟨S4x256x256x64x1, .f32⟩
  | .hbm, ⟨68, _⟩ => ⟨S_, .f32⟩
  | .hbm, ⟨69, _⟩ => ⟨S4x256x256x64x1, .f32⟩
  | .hbm, ⟨70, _⟩ => ⟨S4x256x256x64x1, .f32⟩
  | .hbm, ⟨71, _⟩ => ⟨S4x256x256x64x1, .f32⟩
  | .hbm, ⟨72, _⟩ => ⟨S_, .f32⟩
  | .hbm, ⟨73, _⟩ => ⟨S4x256x256x64x1, .f32⟩
  | .hbm, ⟨74, _⟩ => ⟨S4x256x256x64x1, .f32⟩
  | .hbm, ⟨75, _⟩ => ⟨S4x256x256x64x1, .f32⟩
  | .hbm, ⟨76, _⟩ => ⟨S4x256x256x64x1, .f32⟩
  | .hbm, ⟨77, _⟩ => ⟨S4x256x256x64x1, .f32⟩
  | .hbm, ⟨78, _⟩ => ⟨S4x256x256x64x1, .f32⟩
  | .hbm, ⟨79, _⟩ => ⟨S4x256x256x64x1, .f32⟩
  | .hbm, ⟨80, _⟩ => ⟨S4x256x256x64x1, .f32⟩
  | .hbm, ⟨81, _⟩ => ⟨S4x1x1x64x1, .f32⟩
  | .hbm, ⟨82, _⟩ => ⟨S4x256x256x64x1, .f32⟩
  | .hbm, ⟨83, _⟩ => ⟨S4x256x256x64x1, .f32⟩
  | .hbm, ⟨84, _⟩ => ⟨S4x256x256x64x1, .f32⟩
  | .hbm, ⟨85, _⟩ => ⟨S4x256x256x64x1, .f32⟩
  | .hbm, ⟨86, _⟩ => ⟨S4x256x256x64x1, .f32⟩
  | .hbm, ⟨87, _⟩ => ⟨S4x256x256x64x1, .f32⟩
  | .hbm, ⟨88, _⟩ => ⟨S4x256x256x64x1, .f32⟩
  | .hbm, ⟨89, _⟩ => ⟨S4x1x1x64x1, .f32⟩
  | .hbm, ⟨90, _⟩ => ⟨S4x256x256x64x1, .f32⟩
  | .hbm, ⟨91, _⟩ => ⟨S4x256x256x64x1, .f32⟩
  | .hbm, ⟨92, _⟩ => ⟨S4x256x256x64x1, .f32⟩
  | .hbm, ⟨93, _⟩ => ⟨S4x256x256x64x1, .f32⟩
  | .hbm, ⟨94, _⟩ => ⟨S4x256x256x64x1, .f32⟩
  | .hbm, ⟨95, _⟩ => ⟨S4x256x256x64x1, .f32⟩
  | .hbm, ⟨96, _⟩ => ⟨S4x256x256x64x1, .f32⟩
  | .hbm, ⟨97, _⟩ => ⟨S4x256x256x64x1, .f32⟩
  | .hbm, ⟨98, _⟩ => ⟨S4x256x256x64x1, .f32⟩
  | .hbm, ⟨99, _⟩ => ⟨S4x256x256x64x1, .f32⟩
  | .hbm, ⟨100, _⟩ => ⟨S4x256x256x64x1, .f32⟩
  | .hbm, ⟨101, _⟩ => ⟨S4x256x256x64x1, .f32⟩
  | .hbm, ⟨102, _⟩ => ⟨S4x256x256x64x1, .f32⟩
  | .hbm, ⟨103, _⟩ => ⟨S4x256x256x64x4, .f32⟩
  | .hbm, ⟨104, _⟩ => ⟨S_, .f32⟩
  | .hbm, ⟨105, _⟩ => ⟨S4x256x256x4, .f32⟩
  | _, _ => ⟨S4x64x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_cst : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst_0 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_cst_1 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_cst_2 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_3 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_cst_4 : Ref sig .tc := ⟨.hbm, 104, rfl⟩
abbrev main_v97 : Ref sig .tc := ⟨.hbm, 105, rfl⟩

abbrev nD : Nat := 1
abbrev τ : Topo := Topo.v7x

variable {F : FTy → Type} [FloatOps F]

class Facts₀ : Prop where
  slices_S4x64x8_S4x64x1_0_0_0 : S4x64x8.Slices ![0, 0, 0] S4x64x1
  shapeCasts_S4x64x1_S4x64 : S4x64x1.ShapeCasts S4x64
  slices_S4x64x8_S4x64x1_0_0_1 : S4x64x8.Slices ![0, 0, 1] S4x64x1
  slices_S4x64x8_S4x64x1_0_0_2 : S4x64x8.Slices ![0, 0, 2] S4x64x1
  slices_S4x64x8_S4x64x1_0_0_3 : S4x64x8.Slices ![0, 0, 3] S4x64x1
  slices_S4x64x8_S4x64x1_0_0_4 : S4x64x8.Slices ![0, 0, 4] S4x64x1
  slices_S4x64x8_S4x64x1_0_0_5 : S4x64x8.Slices ![0, 0, 5] S4x64x1
  slices_S4x64x8_S4x64x1_0_0_6 : S4x64x8.Slices ![0, 0, 6] S4x64x1
  slices_S4x64x8_S4x64x1_0_0_7 : S4x64x8.Slices ![0, 0, 7] S4x64x1
  bcast_S4x64_S4x64x1_0_1 : S4x64.BroadcastsInDim S4x64x1 (![0, 1] : Fin 2 → Fin S4x64x1.rank)
  concatenates_S4x64x1_S4x64x1_S4x64x2_d2 : Shape.Concatenates [S4x64x1, S4x64x1] S4x64x2 2
  bcast_S4x256x256x2_S4x256x256x1x2_0_1_2_4 : S4x256x256x2.BroadcastsInDim S4x256x256x1x2 (![0, 1, 2, 4] : Fin 4 → Fin S4x256x256x1x2.rank)
  bcast_S4x64x2_S4x1x1x64x2_0_3_4 : S4x64x2.BroadcastsInDim S4x1x1x64x2 (![0, 3, 4] : Fin 3 → Fin S4x1x1x64x2.rank)
  bcast_S4x64_S4x1x1x64x1_0_3 : S4x64.BroadcastsInDim S4x1x1x64x1 (![0, 3] : Fin 2 → Fin S4x1x1x64x1.rank)
  bcast_S4x256x256x1x2_S4x256x256x64x2_0_1_2_3_4 : S4x256x256x1x2.BroadcastsInDim S4x256x256x64x2 (![0, 1, 2, 3, 4] : Fin 5 → Fin S4x256x256x64x2.rank)
  bcast_S4x1x1x64x2_S4x256x256x64x2_0_1_2_3_4 : S4x1x1x64x2.BroadcastsInDim S4x256x256x64x2 (![0, 1, 2, 3, 4] : Fin 5 → Fin S4x256x256x64x2.rank)
  reducesTo_S4x256x256x64x2_S4x256x256x64_d4 : S4x256x256x64x2.ReducesTo [4] S4x256x256x64
  h_S_ : 0 < S_.numel
  bcast_S4x256x256x64_S4x256x256x64x1_0_1_2_3 : S4x256x256x64.BroadcastsInDim S4x256x256x64x1 (![0, 1, 2, 3] : Fin 4 → Fin S4x256x256x64x1.rank)
  bcast_S4x1x1x64x1_S4x256x256x64x1_0_1_2_3_4 : S4x1x1x64x1.BroadcastsInDim S4x256x256x64x1 (![0, 1, 2, 3, 4] : Fin 5 → Fin S4x256x256x64x1.rank)
  bcast_S_S4x256x256x64x1 : S_.BroadcastsInDim S4x256x256x64x1 (![] : Fin 0 → Fin S4x256x256x64x1.rank)
  slices_S4x256x256x64x2_S4x256x256x64x1_0_0_0_0_0 : S4x256x256x64x2.Slices ![0, 0, 0, 0, 0] S4x256x256x64x1
  slices_S4x256x256x64x2_S4x256x256x64x1_0_0_0_0_1 : S4x256x256x64x2.Slices ![0, 0, 0, 0, 1] S4x256x256x64x1
  concatenates_S4x256x256x64x1_S4x256x256x64x1_S4x256x256x64x1_S4x256x256x64x1_S4x256x256x64x4_d4 : Shape.Concatenates [S4x256x256x64x1, S4x256x256x64x1, S4x256x256x64x1, S4x256x256x64x1] S4x256x256x64x4 4
  reducesTo_S4x256x256x64x4_S4x256x256x4_d3 : S4x256x256x64x4.ReducesTo [3] S4x256x256x4

variable [Facts₀]

class Facts : Prop extends Facts₀ where

variable [Facts]
-- ==== Proof.Spec.lean ====
/-
  The function both programs compute, stated once over the extended reals.

  One vortex is a row (y, x, τ, σ, ·, ·, c, d) of the feature array and one pixel a pair (p_y, p_x) of the point
  array. With dy = p_y − y, dx = p_x − x, s = dy² + dx², σ² = σ·σ and

      e₁      = exp(−10·s / (d·σ²))
      denom   = √(s + c·e₁)
      falloff = exp(−s/σ²) · (exp(−c·e₁) / denom)
      m       = 2·falloff·√s·(1 − c·e₁/(d·σ²))·(0.5/denom − denom)·√s + falloff

  the four gradient fields of the pair are

      v_y =  τ·((dx/dy)·m − (dy/dx)·falloff)      v_x =  τ·(m + falloff)
      u_y = −τ·(m + falloff)                       u_x = −τ·((dy/dx)·m − (dx/dy)·falloff)

  and the result at (b, h, w, k) is the sum over the 64 vortices n of batch row b of field k of the pair
  (vortex (b, n), pixel (b, h, w)). Every operation is the extended reals' own (quotients and the transcendental
  functions with their conventions at the corners), and the products associate to the left exactly as written, so
  that each program's term at an index is this one without any rearrangement of a product or a quotient. The only
  laws the comparison needs are 0 − a = −a, 0 + a = a and the two-term sum s = dy² + dx² read off a sum over an axis
  of extent two: none of them needs a finite operand.
-/
import Idealize.ShloMosaic.PureOps.Ideal
import Idealize.ShloMosaic.PureOps.Ideal.Laws
import Idealize.ShloMosaic.Lib.ValueIdx

noncomputable section

open scoped BigOperators

namespace Cert.Falloff

open Idealize.ShloMosaic Idealize.ShloMosaic.ValueIdx

/-- The four float literals of the formula, each the extended real its binary32 word denotes: −10, 2, 1 and 0.5. -/
def cNegTen : EReal := Ideal.ofBits .f32 0xC1200000#32
def cTwo : EReal := Ideal.ofBits .f32 0x40000000#32
def cOne : EReal := Ideal.ofBits .f32 0x3F800000#32
def cHalf : EReal := Ideal.ofBits .f32 0x3F000000#32

/-- The squared distance s = dy² + dx². -/
def sqDist (dy dx : EReal) : EReal := dy * dy + dx * dx

/-- The inner exponential e₁ = exp(−10·s / (d·σ²)). -/
def inner (s sg2 d : EReal) : EReal := Ideal.exp (Ideal.div (cNegTen * s) (d * sg2))

/-- The denominator √(s + c·e₁). -/
def denom (s c e : EReal) : EReal := Ideal.sqrt (s + c * e)

/-- The falloff exp(−s/σ²) · (exp(−c·e₁) / denom). -/
def falloff (s sg2 c e : EReal) : EReal :=
  Ideal.exp (Ideal.div (-s) sg2) * Ideal.div (Ideal.exp (-c * e)) (denom s c e)

/-- m = 2·falloff·√s·(1 − c·e₁/(d·σ²))·(0.5/denom − denom)·√s + falloff, the products associated to the left. -/
def mTerm (s sg2 c d e : EReal) : EReal :=
  cTwo * falloff s sg2 c e * Ideal.sqrt s * (cOne - Ideal.div (c * e) (d * sg2))
    * (Ideal.div cHalf (denom s c e) - denom s c e) * Ideal.sqrt s + falloff s sg2 c e

/-- The four fields from the pair's differences, its strength τ, m and the falloff, in the order the result's last axis
    lists them: v_y, v_x, u_y, u_x. -/
def fieldOf (k : Fin 4) (tau dy dx mm f : EReal) : EReal :=
  match k with
  | ⟨0, _⟩ => tau * (Ideal.div dx dy * mm - Ideal.div dy dx * f)
  | ⟨1, _⟩ => tau * (mm + f)
  | ⟨2, _⟩ => -tau * (mm + f)
  | ⟨3, _⟩ => -tau * (Ideal.div dy dx * mm - Ideal.div dx dy * f)

/-- Field `k` of one (vortex, pixel) pair from the vortex's six entries and the pixel's two. -/
def pairField (k : Fin 4) (y x tau sg c d py px : EReal) : EReal :=
  fieldOf k tau (py - y) (px - x)
    (mTerm (sqDist (py - y) (px - x)) (sg * sg) c d (inner (sqDist (py - y) (px - x)) (sg * sg) d))
    (falloff (sqDist (py - y) (px - x)) (sg * sg) c (inner (sqDist (py - y) (px - x)) (sg * sg) d))

/-- THE RESULT: at (b, h, w, k) the sum over the 64 vortices of batch row b of field k of the pair with pixel (b, h, w). -/
def G (vf : (⟨3, ![4, 64, 8]⟩ : Shape).Idx → EReal) (pts : (⟨4, ![4, 256, 256, 2]⟩ : Shape).Idx → EReal) :
    (⟨4, ![4, 256, 256, 4]⟩ : Shape).Idx → EReal := fun i =>
  ∑ n : Fin 64, pairField (i 3)
    (vf (ix3 (i 0) n (0 : Fin 8))) (vf (ix3 (i 0) n (1 : Fin 8))) (vf (ix3 (i 0) n (2 : Fin 8)))
    (vf (ix3 (i 0) n (3 : Fin 8))) (vf (ix3 (i 0) n (6 : Fin 8))) (vf (ix3 (i 0) n (7 : Fin 8)))
    (pts (ix4 (i 0) (i 1) (i 2) (0 : Fin 2))) (pts (ix4 (i 0) (i 1) (i 2) (1 : Fin 2)))

/-- `G` read at an index. -/
theorem G_at (vf : (⟨3, ![4, 64, 8]⟩ : Shape).Idx → EReal) (pts : (⟨4, ![4, 256, 256, 2]⟩ : Shape).Idx → EReal)
    (i : (⟨4, ![4, 256, 256, 4]⟩ : Shape).Idx) :
    G vf pts i = ∑ n : Fin 64, pairField (i 3)
      (vf (ix3 (i 0) n (0 : Fin 8))) (vf (ix3 (i 0) n (1 : Fin 8))) (vf (ix3 (i 0) n (2 : Fin 8)))
      (vf (ix3 (i 0) n (3 : Fin 8))) (vf (ix3 (i 0) n (6 : Fin 8))) (vf (ix3 (i 0) n (7 : Fin 8)))
      (pts (ix4 (i 0) (i 1) (i 2) (0 : Fin 2))) (pts (ix4 (i 0) (i 1) (i 2) (1 : Fin 2))) := rfl

/-- `pairField` of equal field numbers and equal entries. -/
theorem pairField_congr {k k' : Fin 4} {y x tau sg c d py px y' x' tau' sg' c' d' py' px' : EReal}
    (hk : k = k') (hy : y = y') (hx : x = x') (htau : tau = tau') (hsg : sg = sg') (hc : c = c') (hd : d = d')
    (hpy : py = py') (hpx : px = px') :
    pairField k y x tau sg c d py px = pairField k' y' x' tau' sg' c' d' py' px' := by
  subst hk hy hx htau hsg hc hd hpy hpx
  rfl

end Cert.Falloff

end
-- ==== Proof.KernelLoads.lean ====
/-
  The kernel body's first half, read at one element.

  The body loads one batch row's vortex block P0 : [1, 64, 8] and one pixel slab P1 : [1, 16, 256, 2]. It cuts six
  columns out of P0 (each re-laid as a [64, 1, 1] column over the vortex axis) and the two pixel coordinates out of P1
  (each re-laid as a [1, 16, 256] plane), broadcasts both to [64, 16, 256] and computes pointwise. So at (n, h, w) every
  value of this half depends on vortex n's row of P0 and pixel (h, w)'s pair of P1 alone:

      dy = P1[0,h,w,0] − P0[0,n,0]      dx = P1[0,h,w,1] − P0[0,n,1]      s = dy·dy + dx·dx
      σ² = P0[0,n,3]·P0[0,n,3]          gaussian = exp((0 − s)/σ²)        e₁'s argument = (−10·s)/(d·σ²), d = P0[0,n,7]

  The layout operations are read with one lemma each (a slice shifts the index by its offset, a shape cast keeps the
  row-major position, a broadcast reads the operand at 0 on its unit axes); the arithmetic is pointwise by definition.
-/
import proofs.«152878_j83434034692737_1_alg».proof.Proof.Gen.KernelIdeal.Skeleton
import proofs.«152878_j83434034692737_1_alg».proof.Proof.Spec
import Idealize.ShloMosaic.Lib.Pipeline.Value
import Idealize.ShloMosaic.Lib.ValueIdx
import Idealize.ShloMosaic.PureOps.Ideal.Laws

noncomputable section

namespace Cert.Falloff.Kernel

open Cert.KernelIdeal Cert.KernelIdeal.Gen Idealize.ShloMosaic Idealize.ShloMosaic.ValueIdx Cert.Falloff

/-! ## The layout operations of the body, read at an index -/

/-- A [64, 1, 1] column broadcast to [64, 16, 256] reads, at (n, h, w), the column at n. -/
theorem bcast_col {α : Type} (v : S64x1x1.Idx → α) (n : Fin 64) (h : Fin 16) (w : Fin 256) :
    broadcastTo S64x16x256 v broadcasts_S64x1x1_S64x16x256 (ix3 n h w) = v (ix3 n (0 : Fin 1) (0 : Fin 1)) :=
  broadcastTo_apply v _ (ix3 n h w) (ix3 n (0 : Fin 1) (0 : Fin 1)) (fun a => by
    match a with
    | ⟨0, _⟩ => rfl
    | ⟨1, _⟩ => rfl
    | ⟨2, _⟩ => rfl)

/-- A [1, 16, 256] plane broadcast to [64, 16, 256] reads, at (n, h, w), the plane at (h, w). -/
theorem bcast_plane {α : Type} (v : S1x16x256.Idx → α) (n : Fin 64) (h : Fin 16) (w : Fin 256) :
    broadcastTo S64x16x256 v broadcasts_S1x16x256_S64x16x256 (ix3 n h w) = v (ix3 (0 : Fin 1) h w) :=
  broadcastTo_apply v _ (ix3 n h w) (ix3 (0 : Fin 1) h w) (fun a => by
    match a with
    | ⟨0, _⟩ => rfl
    | ⟨1, _⟩ => rfl
    | ⟨2, _⟩ => rfl)

/-- Column `o` of a [64, 8] matrix, cut out as [64, 1] and re-laid as a [64, 1, 1] column, reads at n the matrix at (n, o). -/
theorem col_read {α : Type} (v : S64x8.Idx → α) (o : Nat) (ho : o < 8) (hs : S64x8.Slices ![0, o] S64x1) (n : Fin 64) :
    shapeCast S64x1x1 (shapeCast S64 (extractStridedSlice S64x1 ![0, o] v hs) shapeCasts_S64x1_S64) shapeCasts_S64_S64x1x1
        (ix3 n (0 : Fin 1) (0 : Fin 1))
      = v (ix2 n (⟨o, ho⟩ : Fin 8)) := by
  refine (shapeCast_apply _ _ (ix3 n (0 : Fin 1) (0 : Fin 1)) (ix1 n) ?_).trans ?_
  · rw [Shape.rowMajor_val_one, Shape.rowMajor_val_three]
    show n.val = (n.val * 1 + 0) * 1 + 0
    omega
  refine (shapeCast_apply _ _ (ix1 n) (ix2 n (0 : Fin 1)) ?_).trans ?_
  · rw [Shape.rowMajor_val_two, Shape.rowMajor_val_one]
    show n.val * 1 + 0 = n.val
    omega
  exact extractStridedSlice_apply _ _ hs (ix2 n (0 : Fin 1)) (ix2 n (⟨o, ho⟩ : Fin 8)) (fun a => by
    match a with
    | ⟨0, _⟩ => show n.val = 0 + n.val; omega
    | ⟨1, _⟩ => show o = o + 0; omega)

/-- Coordinate `o` of a [16, 256, 2] slab, cut out as [16, 256, 1] and re-laid as a [1, 16, 256] plane, reads at (h, w) the
    slab at (h, w, o). -/
theorem plane_read {α : Type} (v : S16x256x2.Idx → α) (o : Nat) (ho : o < 2) (hs : S16x256x2.Slices ![0, 0, o] S16x256x1)
    (h : Fin 16) (w : Fin 256) :
    shapeCast S1x16x256 (shapeCast S16x256 (extractStridedSlice S16x256x1 ![0, 0, o] v hs) shapeCasts_S16x256x1_S16x256)
        shapeCasts_S16x256_S1x16x256 (ix3 (0 : Fin 1) h w)
      = v (ix3 h w (⟨o, ho⟩ : Fin 2)) := by
  refine (shapeCast_apply _ _ (ix3 (0 : Fin 1) h w) (ix2 h w) ?_).trans ?_
  · rw [Shape.rowMajor_val_two, Shape.rowMajor_val_three]
    show h.val * 256 + w.val = (0 * 16 + h.val) * 256 + w.val
    omega
  refine (shapeCast_apply _ _ (ix2 h w) (ix3 h w (0 : Fin 1)) ?_).trans ?_
  · rw [Shape.rowMajor_val_three, Shape.rowMajor_val_two]
    show (h.val * 256 + w.val) * 1 + 0 = h.val * 256 + w.val
    omega
  exact extractStridedSlice_apply _ _ hs (ix3 h w (0 : Fin 1)) (ix3 h w (⟨o, ho⟩ : Fin 2)) (fun a => by
    match a with
    | ⟨0, _⟩ => show h.val = 0 + h.val; omega
    | ⟨1, _⟩ => show w.val = 0 + w.val; omega
    | ⟨2, _⟩ => show o = o + 0; omega)

/-! ## The two loaded blocks without their leading unit axis -/

variable (P0 : FVec Ideal S1x64x8 .f32) (P1 : FVec Ideal S1x16x256x2 .f32)

/-- The vortex block as a [64, 8] matrix: entry (n, o) is P0 at (0, n, o). -/
theorem vortex_at (n : Fin 64) (o : Fin 8) : k0_pay2 (F := Ideal) P0 (ix2 n o) = P0 (ix3 (0 : Fin 1) n o) := by
  unfold k0_pay2
  exact shapeCast_apply _ _ (ix2 n o) (ix3 (0 : Fin 1) n o) (by
    rw [Shape.rowMajor_val_three, Shape.rowMajor_val_two]
    show (0 * 64 + n.val) * 8 + o.val = n.val * 8 + o.val
    omega)

/-- The pixel slab as a [16, 256, 2] array: entry (h, w, o) is P1 at (0, h, w, o). -/
theorem pixel_at (h : Fin 16) (w : Fin 256) (o : Fin 2) : k0_pay6 (F := Ideal) P1 (ix3 h w o) = P1 (ix4 (0 : Fin 1) h w o) := by
  unfold k0_pay6
  exact shapeCast_apply _ _ (ix3 h w o) (ix4 (0 : Fin 1) h w o) (by
    rw [Shape.rowMajor_val_four, Shape.rowMajor_val_three]
    show ((0 * 16 + h.val) * 256 + w.val) * 2 + o.val = (h.val * 256 + w.val) * 2 + o.val
    omega)

/-! ## The vortex columns -/

/-- The column c (entry 6 of a vortex's row). -/
theorem c_at (n : Fin 64) : k0_pay3 (F := Ideal) P0 (ix3 n (0 : Fin 1) (0 : Fin 1)) = P0 (ix3 (0 : Fin 1) n (6 : Fin 8)) := by
  unfold k0_pay3
  exact (col_read (k0_pay2 (F := Ideal) P0) 6 (by decide) _ n).trans (vortex_at P0 n _)

/-- The column d (entry 7). -/
theorem d_at (n : Fin 64) : k0_pay4 (F := Ideal) P0 (ix3 n (0 : Fin 1) (0 : Fin 1)) = P0 (ix3 (0 : Fin 1) n (7 : Fin 8)) := by
  unfold k0_pay4
  exact (col_read (k0_pay2 (F := Ideal) P0) 7 (by decide) _ n).trans (vortex_at P0 n _)

/-- The column τ (entry 2). -/
theorem tau_at (n : Fin 64) : k0_pay5 (F := Ideal) P0 (ix3 n (0 : Fin 1) (0 : Fin 1)) = P0 (ix3 (0 : Fin 1) n (2 : Fin 8)) := by
  unfold k0_pay5
  exact (col_read (k0_pay2 (F := Ideal) P0) 2 (by decide) _ n).trans (vortex_at P0 n _)

/-- σ² as a column: the square of entry 3. -/
theorem sg2_at (n : Fin 64) :
    k0_pay11 (F := Ideal) P0 (ix3 n (0 : Fin 1) (0 : Fin 1)) = P0 (ix3 (0 : Fin 1) n (3 : Fin 8)) * P0 (ix3 (0 : Fin 1) n (3 : Fin 8)) := by
  unfold k0_pay11
  have e := (col_read (k0_pay2 (F := Ideal) P0) 3 (by decide) slices_S64x8_o0_3_S64x1 n).trans (vortex_at P0 n _)
  exact congrArg₂ (· * ·) e e

/-! ## The differences, the squared distance and what is computed from it alone -/

/-- dy at (n, h, w): pixel (h, w)'s first coordinate less vortex n's y (entry 0). -/
theorem dy_at (n : Fin 64) (h : Fin 16) (w : Fin 256) :
    k0_pay7 (F := Ideal) P0 P1 (ix3 n h w) = P1 (ix4 (0 : Fin 1) h w (0 : Fin 2)) - P0 (ix3 (0 : Fin 1) n (0 : Fin 8)) := by
  unfold k0_pay7
  have e1 := (bcast_plane _ n h w).trans
    ((plane_read (k0_pay6 (F := Ideal) P1) 0 (by decide) slices_S16x256x2_o0_0_0_S16x256x1 h w).trans (pixel_at P1 h w _))
  have e2 := (bcast_col _ n h w).trans
    ((col_read (k0_pay2 (F := Ideal) P0) 0 (by decide) slices_S64x8_o0_0_S64x1 n).trans (vortex_at P0 n _))
  exact congrArg₂ (· - ·) e1 e2

/-- dx at (n, h, w): pixel (h, w)'s second coordinate less vortex n's x (entry 1). -/
theorem dx_at (n : Fin 64) (h : Fin 16) (w : Fin 256) :
    k0_pay8 (F := Ideal) P0 P1 (ix3 n h w) = P1 (ix4 (0 : Fin 1) h w (1 : Fin 2)) - P0 (ix3 (0 : Fin 1) n (1 : Fin 8)) := by
  unfold k0_pay8
  have e1 := (bcast_plane _ n h w).trans
    ((plane_read (k0_pay6 (F := Ideal) P1) 1 (by decide) slices_S16x256x2_o0_0_1_S16x256x1 h w).trans (pixel_at P1 h w _))
  have e2 := (bcast_col _ n h w).trans
    ((col_read (k0_pay2 (F := Ideal) P0) 1 (by decide) slices_S64x8_o0_1_S64x1 n).trans (vortex_at P0 n _))
  exact congrArg₂ (· - ·) e1 e2

/-- The squared distance is dy·dy + dx·dx at every index (pointwise). -/
theorem s_at (i : S64x16x256.Idx) : k0_pay9 (F := Ideal) P0 P1 i = sqDist (k0_pay7 (F := Ideal) P0 P1 i) (k0_pay8 (F := Ideal) P0 P1 i) := rfl

/-- √s, pointwise. -/
theorem r_at (i : S64x16x256.Idx) : k0_pay10 (F := Ideal) P0 P1 i = Ideal.sqrt (k0_pay9 (F := Ideal) P0 P1 i) := rfl

/-- The Gaussian part exp((0 − s)/σ²) is exp(−s/σ²): the zero word denotes 0. -/
theorem gauss_at (n : Fin 64) (h : Fin 16) (w : Fin 256) :
    k0_pay12 (F := Ideal) P0 P1 (ix3 n h w)
      = Ideal.exp (Ideal.div (-(k0_pay9 (F := Ideal) P0 P1 (ix3 n h w))) (k0_pay11 (F := Ideal) P0 (ix3 n (0 : Fin 1) (0 : Fin 1)))) := by
  unfold k0_pay12
  show Ideal.exp (Ideal.div (Ideal.ofBits .f32 0x00000000#32 - k0_pay9 (F := Ideal) P0 P1 (ix3 n h w))
    (broadcastTo S64x16x256 (k0_pay11 (F := Ideal) P0) broadcasts_S64x1x1_S64x16x256 (ix3 n h w))) = _
  rw [bcast_col, Ideal.ofBits_zero_f32, zero_sub]

/-- e₁'s argument (−10·s)/(d·σ²). -/
theorem innerArg_at (n : Fin 64) (h : Fin 16) (w : Fin 256) :
    k0_pay13 (F := Ideal) P0 P1 (ix3 n h w)
      = Ideal.div (cNegTen * k0_pay9 (F := Ideal) P0 P1 (ix3 n h w))
          (k0_pay4 (F := Ideal) P0 (ix3 n (0 : Fin 1) (0 : Fin 1)) * k0_pay11 (F := Ideal) P0 (ix3 n (0 : Fin 1) (0 : Fin 1))) := by
  unfold k0_pay13
  show Ideal.div (Ideal.ofBits .f32 0xC1200000#32 * k0_pay9 (F := Ideal) P0 P1 (ix3 n h w))
    (broadcastTo S64x16x256 (mulf (k0_pay4 (F := Ideal) P0) (k0_pay11 (F := Ideal) P0)) broadcasts_S64x1x1_S64x16x256 (ix3 n h w)) = _
  rw [bcast_col]
  rfl

end Cert.Falloff.Kernel

end
-- ==== Proof.KernelFields.lean ====
/-
  The kernel body's second half, read at one element, and the block it stores.

  From the vortex columns c, d, τ, σ² (each [64, 1, 1]) and the [64, 16, 256] values dy, dx, s, √s, the Gaussian part and
  e₁'s argument, the body computes pointwise (a column read at its vortex n through the broadcast)

      e₁ = exp(arg)      denom = √(s + c·e₁)      falloff = gaussian · (exp((0 − c)·e₁) / denom)
      m  = 2·falloff·√s·(1 − (c·e₁)/(d·σ²))·(0.5/denom − denom)·√s + falloff

  and the four fields v_y, v_x, u_y, u_x of the pair (vortex n, pixel (h, w)). Each field is then summed over the vortex
  axis (a sum over the 64 coordinates of axis 0, read term by term), the four sums are stacked on a new last axis and a
  leading unit axis is put back. So the stored block at (0, h, w, k) is the sum over n of field k at (n, h, w), which is
  the specification's `pairField k` of vortex n's row and pixel (h, w)'s pair: the negations 0 − c and 0 − τ are −c and
  −τ because the zero word denotes the extended real 0.
-/
import proofs.«152878_j83434034692737_1_alg».proof.Proof.KernelLoads

noncomputable section

open scoped BigOperators

namespace Cert.Falloff.Kernel

open Cert.KernelIdeal Cert.KernelIdeal.Gen Idealize.ShloMosaic Idealize.ShloMosaic.ValueIdx Cert.Falloff

/-! ## The pointwise half over vector variables -/

section Pointwise

variable (v15 v16 v17 v38 : FVec Ideal S64x1x1 .f32) (v28 v33 v36 v37 v43 v48 : FVec Ideal S64x16x256 .f32)

/-- A column subtracted from the zero splat is the column negated. -/
theorem negcol_at (v : FVec Ideal S64x1x1 .f32) (j : S64x1x1.Idx) :
    subf (broadcast S64x1x1 (Scalar.ofBits (F := Ideal) .f32 0x00000000#32)) v j = -(v j) := by
  show Ideal.ofBits .f32 0x00000000#32 - v j = _
  rw [Ideal.ofBits_zero_f32, zero_sub]

/-- e₁ is the exponential of its argument, pointwise. -/
theorem e1_at (i : S64x16x256.Idx) : k0_pay14 v48 i = Ideal.exp (v48 i) := rfl

/-- denom = √(s + c·e₁) at (n, h, w), the column c read at n. -/
theorem denom_at (n : Fin 64) (h : Fin 16) (w : Fin 256) :
    k0_pay15 v15 v36 v48 (ix3 n h w)
      = denom (v36 (ix3 n h w)) (v15 (ix3 n (0 : Fin 1) (0 : Fin 1))) (Ideal.exp (v48 (ix3 n h w))) := by
  unfold k0_pay15
  show Ideal.sqrt (v36 (ix3 n h w)
    + broadcastTo S64x16x256 v15 broadcasts_S64x1x1_S64x16x256 (ix3 n h w) * k0_pay14 v48 (ix3 n h w)) = _
  rw [bcast_col]
  rfl

/-- falloff = gaussian · (exp(−c·e₁) / denom) at (n, h, w). -/
theorem falloff_at (n : Fin 64) (h : Fin 16) (w : Fin 256) :
    k0_pay16 v15 v36 v43 v48 (ix3 n h w)
      = v43 (ix3 n h w) * Ideal.div (Ideal.exp (-(v15 (ix3 n (0 : Fin 1) (0 : Fin 1))) * Ideal.exp (v48 (ix3 n h w))))
          (denom (v36 (ix3 n h w)) (v15 (ix3 n (0 : Fin 1) (0 : Fin 1))) (Ideal.exp (v48 (ix3 n h w)))) := by
  unfold k0_pay16
  show v43 (ix3 n h w) * Ideal.div (Ideal.exp
      (broadcastTo S64x16x256 (subf (broadcast S64x1x1 (Scalar.ofBits (F := Ideal) .f32 0x00000000#32)) v15)
        broadcasts_S64x1x1_S64x16x256 (ix3 n h w) * k0_pay14 v48 (ix3 n h w)))
    (k0_pay15 v15 v36 v48 (ix3 n h w)) = _
  rw [bcast_col, negcol_at, denom_at]
  rfl

/-- m at (n, h, w), over the falloff and the denominator at that element. -/
theorem m_at (n : Fin 64) (h : Fin 16) (w : Fin 256) :
    k0_pay17 v15 v16 v36 v37 v38 v43 v48 (ix3 n h w)
      = cTwo * k0_pay16 v15 v36 v43 v48 (ix3 n h w) * v37 (ix3 n h w)
          * (cOne - Ideal.div (v15 (ix3 n (0 : Fin 1) (0 : Fin 1)) * Ideal.exp (v48 (ix3 n h w)))
              (v16 (ix3 n (0 : Fin 1) (0 : Fin 1)) * v38 (ix3 n (0 : Fin 1) (0 : Fin 1))))
          * (Ideal.div cHalf (k0_pay15 v15 v36 v48 (ix3 n h w)) - k0_pay15 v15 v36 v48 (ix3 n h w))
          * v37 (ix3 n h w) + k0_pay16 v15 v36 v43 v48 (ix3 n h w) := by
  unfold k0_pay17
  show Ideal.ofBits .f32 0x40000000#32 * k0_pay16 v15 v36 v43 v48 (ix3 n h w) * v37 (ix3 n h w)
      * (Ideal.ofBits .f32 0x3F800000#32
          - Ideal.div (broadcastTo S64x16x256 v15 broadcasts_S64x1x1_S64x16x256 (ix3 n h w) * k0_pay14 v48 (ix3 n h w))
              (broadcastTo S64x16x256 (mulf v16 v38) broadcasts_S64x1x1_S64x16x256 (ix3 n h w)))
      * (Ideal.div (Ideal.ofBits .f32 0x3F000000#32) (k0_pay15 v15 v36 v48 (ix3 n h w)) - k0_pay15 v15 v36 v48 (ix3 n h w))
      * v37 (ix3 n h w) + k0_pay16 v15 v36 v43 v48 (ix3 n h w) = _
  rw [bcast_col, bcast_col]
  rfl

/-- u_x = −τ·((dy/dx)·m − (dx/dy)·falloff) at (n, h, w). -/
theorem ux_at (n : Fin 64) (h : Fin 16) (w : Fin 256) :
    k0_pay18 v15 v16 v17 v28 v33 v36 v37 v38 v43 v48 (ix3 n h w)
      = fieldOf 3 (v17 (ix3 n (0 : Fin 1) (0 : Fin 1))) (v28 (ix3 n h w)) (v33 (ix3 n h w))
          (k0_pay17 v15 v16 v36 v37 v38 v43 v48 (ix3 n h w)) (k0_pay16 v15 v36 v43 v48 (ix3 n h w)) := by
  unfold k0_pay18
  show broadcastTo S64x16x256 (subf (broadcast S64x1x1 (Scalar.ofBits (F := Ideal) .f32 0x00000000#32)) v17)
      broadcasts_S64x1x1_S64x16x256 (ix3 n h w)
    * (Ideal.div (v28 (ix3 n h w)) (v33 (ix3 n h w)) * k0_pay17 v15 v16 v36 v37 v38 v43 v48 (ix3 n h w)
        - Ideal.div (v33 (ix3 n h w)) (v28 (ix3 n h w)) * k0_pay16 v15 v36 v43 v48 (ix3 n h w)) = _
  rw [bcast_col, negcol_at]
  rfl

/-- u_y = −τ·(m + falloff) at (n, h, w). -/
theorem uy_at (n : Fin 64) (h : Fin 16) (w : Fin 256) :
    k0_pay19 v15 v16 v17 v36 v37 v38 v43 v48 (ix3 n h w)
      = fieldOf 2 (v17 (ix3 n (0 : Fin 1) (0 : Fin 1))) (v28 (ix3 n h w)) (v33 (ix3 n h w))
          (k0_pay17 v15 v16 v36 v37 v38 v43 v48 (ix3 n h w)) (k0_pay16 v15 v36 v43 v48 (ix3 n h w)) := by
  unfold k0_pay19
  show broadcastTo S64x16x256 (subf (broadcast S64x1x1 (Scalar.ofBits (F := Ideal) .f32 0x00000000#32)) v17)
      broadcasts_S64x1x1_S64x16x256 (ix3 n h w)
    * (k0_pay17 v15 v16 v36 v37 v38 v43 v48 (ix3 n h w) + k0_pay16 v15 v36 v43 v48 (ix3 n h w)) = _
  rw [bcast_col, negcol_at]
  rfl

/-- v_x = τ·(m + falloff) at (n, h, w). -/
theorem vx_at (n : Fin 64) (h : Fin 16) (w : Fin 256) :
    k0_pay20 v15 v16 v17 v36 v37 v38 v43 v48 (ix3 n h w)
      = fieldOf 1 (v17 (ix3 n (0 : Fin 1) (0 : Fin 1))) (v28 (ix3 n h w)) (v33 (ix3 n h w))
          (k0_pay17 v15 v16 v36 v37 v38 v43 v48 (ix3 n h w)) (k0_pay16 v15 v36 v43 v48 (ix3 n h w)) := by
  unfold k0_pay20
  show broadcastTo S64x16x256 v17 broadcasts_S64x1x1_S64x16x256 (ix3 n h w)
    * (k0_pay17 v15 v16 v36 v37 v38 v43 v48 (ix3 n h w) + k0_pay16 v15 v36 v43 v48 (ix3 n h w)) = _
  rw [bcast_col]
  rfl

/-- v_y = τ·((dx/dy)·m − (dy/dx)·falloff) at (n, h, w). -/
theorem vy_at (n : Fin 64) (h : Fin 16) (w : Fin 256) :
    k0_pay21 v15 v16 v17 v28 v33 v36 v37 v38 v43 v48 (ix3 n h w)
      = fieldOf 0 (v17 (ix3 n (0 : Fin 1) (0 : Fin 1))) (v28 (ix3 n h w)) (v33 (ix3 n h w))
          (k0_pay17 v15 v16 v36 v37 v38 v43 v48 (ix3 n h w)) (k0_pay16 v15 v36 v43 v48 (ix3 n h w)) := by
  unfold k0_pay21
  show broadcastTo S64x16x256 v17 broadcasts_S64x1x1_S64x16x256 (ix3 n h w)
    * (Ideal.div (v33 (ix3 n h w)) (v28 (ix3 n h w)) * k0_pay17 v15 v16 v36 v37 v38 v43 v48 (ix3 n h w)
        - Ideal.div (v28 (ix3 n h w)) (v33 (ix3 n h w)) * k0_pay16 v15 v36 v43 v48 (ix3 n h w)) = _
  rw [bcast_col]
  rfl

end Pointwise

/-! ## The sum over the vortex axis and the stack of the four sums -/

/-- A [64, 16, 256] value summed over its first axis and given a trailing unit axis reads, at (h, w, 0), the sum over the
    64 vortices n of the value at (n, h, w). -/
theorem lane_sum (X : FVec Ideal S64x16x256 .f32) (h : Fin 16) (w : Fin 256) :
    shapeCast S16x256x1 (multiReduction .add [0] S16x256 X 0x00000000#32 reduces_S64x16x256_S16x256 (.inl rfl) rfl)
        shapeCasts_S16x256_S16x256x1 (ix3 h w (0 : Fin 1))
      = ∑ n : Fin 64, X (ix3 n h w) := by
  refine (shapeCast_apply _ _ (ix3 h w (0 : Fin 1)) (ix2 h w) ?_).trans ?_
  · rw [Shape.rowMajor_val_two, Shape.rowMajor_val_three]
    show h.val * 256 + w.val = (h.val * 256 + w.val) * 1 + 0
    omega
  refine (Ideal.multiReduction_add_single X 0x00000000#32 reduces_S64x16x256_S16x256 (.inl rfl) rfl (ix2 h w)).trans ?_
  exact Finset.sum_congr rfl fun n _ => congrArg X (funext fun a => by
    match a with
    | ⟨0, _⟩ => rfl
    | ⟨1, _⟩ => rfl
    | ⟨2, _⟩ => rfl)

/-- Four [16, 256, 1] pieces stacked on the last axis: at (h, w, k) the stack reads piece k at (h, w, 0). -/
theorem stack4_at {α : Type} (q0 q1 q2 q3 : S16x256x1.Idx → α) (h : Fin 16) (w : Fin 256) (k : Fin 4) :
    concatenate S16x256x4 2 [⟨S16x256x1, q0⟩, ⟨S16x256x1, q1⟩, ⟨S16x256x1, q2⟩, ⟨S16x256x1, q3⟩]
        concatenates_S16x256x1_S16x256x1_S16x256x1_S16x256x1_S16x256x4_d2 (ix3 h w k)
      = (match k with | ⟨0, _⟩ => q0 | ⟨1, _⟩ => q1 | ⟨2, _⟩ => q2 | ⟨3, _⟩ => q3) (ix3 h w (0 : Fin 1)) := by
  have hi : ∀ (k : Fin 4) (b : Fin S16x256x1.rank), b.cast (rfl : S16x256x1.rank = S16x256x4.rank) ≠ (2 : Fin 3) →
      ((ix3 h w (0 : Fin 1) : S16x256x1.Idx) b).val = ((ix3 h w k : S16x256x4.Idx) (b.cast rfl)).val := fun k b hb => by
    match b with
    | ⟨0, _⟩ => rfl
    | ⟨1, _⟩ => rfl
    | ⟨2, _⟩ => exact absurd rfl hb
  match k with
  | ⟨0, _⟩ =>
    exact concatenate_apply_piece (t := S16x256x4) (2 : Fin 3) [⟨S16x256x1, q0⟩, ⟨S16x256x1, q1⟩, ⟨S16x256x1, q2⟩, ⟨S16x256x1, q3⟩] concatenates_S16x256x1_S16x256x1_S16x256x1_S16x256x1_S16x256x4_d2
      (ix3 h w _) 0 (show (0 : Nat) < 4 by decide) S16x256x1 q0 rfl rfl 0 rfl
      (ix3 h w (0 : Fin 1)) (hi _) rfl
  | ⟨1, _⟩ =>
    exact concatenate_apply_piece (t := S16x256x4) (2 : Fin 3) [⟨S16x256x1, q0⟩, ⟨S16x256x1, q1⟩, ⟨S16x256x1, q2⟩, ⟨S16x256x1, q3⟩] concatenates_S16x256x1_S16x256x1_S16x256x1_S16x256x1_S16x256x4_d2
      (ix3 h w _) 1 (show (1 : Nat) < 4 by decide) S16x256x1 q1 rfl rfl 1 rfl
      (ix3 h w (0 : Fin 1)) (hi _) rfl
  | ⟨2, _⟩ =>
    exact concatenate_apply_piece (t := S16x256x4) (2 : Fin 3) [⟨S16x256x1, q0⟩, ⟨S16x256x1, q1⟩, ⟨S16x256x1, q2⟩, ⟨S16x256x1, q3⟩] concatenates_S16x256x1_S16x256x1_S16x256x1_S16x256x1_S16x256x4_d2
      (ix3 h w _) 2 (show (2 : Nat) < 4 by decide) S16x256x1 q2 rfl rfl 2 rfl
      (ix3 h w (0 : Fin 1)) (hi _) rfl
  | ⟨3, _⟩ =>
    exact concatenate_apply_piece (t := S16x256x4) (2 : Fin 3) [⟨S16x256x1, q0⟩, ⟨S16x256x1, q1⟩, ⟨S16x256x1, q2⟩, ⟨S16x256x1, q3⟩] concatenates_S16x256x1_S16x256x1_S16x256x1_S16x256x1_S16x256x4_d2
      (ix3 h w _) 3 (show (3 : Nat) < 4 by decide) S16x256x1 q3 rfl rfl 3 rfl
      (ix3 h w (0 : Fin 1)) (hi _) rfl

/-- THE STORED VALUE from the four fields: at (0, h, w, k) the sum over the vortices of field k (the store lists them
    v_y, v_x, u_y, u_x; the payload takes them in the opposite order). -/
theorem stored_at (A B C D : FVec Ideal S64x16x256 .f32) (h : Fin 16) (w : Fin 256) (k : Fin 4) :
    k0_pay1 A B C D (ix4 (0 : Fin 1) h w k)
      = ∑ n : Fin 64, (match k with | ⟨0, _⟩ => D | ⟨1, _⟩ => C | ⟨2, _⟩ => B | ⟨3, _⟩ => A) (ix3 n h w) := by
  unfold k0_pay1
  refine (shapeCast_apply _ _ (ix4 (0 : Fin 1) h w k) (ix3 h w k) ?_).trans ?_
  · rw [Shape.rowMajor_val_three, Shape.rowMajor_val_four]
    show (h.val * 256 + w.val) * 4 + k.val = (((0 * 16 + h.val) * 256 + w.val) * 4 + k.val)
    omega
  refine (stack4_at _ _ _ _ h w k).trans ?_
  match k with
  | ⟨0, _⟩ => exact lane_sum D h w
  | ⟨1, _⟩ => exact lane_sum C h w
  | ⟨2, _⟩ => exact lane_sum B h w
  | ⟨3, _⟩ => exact lane_sum A h w

/-! ## The stored block as the specification's sum -/

section Block

variable (P0 : FVec Ideal S1x64x8 .f32) (P1 : FVec Ideal S1x16x256x2 .f32)

/-- Field k of the pair (vortex n, pixel (h, w)), as the body computes it from the two loaded blocks, is the
    specification's `pairField k` of vortex n's six entries and the pixel's two. -/
theorem field_pair (k : Fin 4) (n : Fin 64) (h : Fin 16) (w : Fin 256) :
    (match k with
      | ⟨0, _⟩ => k0_pay21 (k0_pay3 (F := Ideal) P0) (k0_pay4 (F := Ideal) P0) (k0_pay5 (F := Ideal) P0) (k0_pay7 (F := Ideal) P0 P1) (k0_pay8 (F := Ideal) P0 P1) (k0_pay9 (F := Ideal) P0 P1)
          (k0_pay10 (F := Ideal) P0 P1) (k0_pay11 (F := Ideal) P0) (k0_pay12 (F := Ideal) P0 P1) (k0_pay13 (F := Ideal) P0 P1)
      | ⟨1, _⟩ => k0_pay20 (k0_pay3 (F := Ideal) P0) (k0_pay4 (F := Ideal) P0) (k0_pay5 (F := Ideal) P0) (k0_pay9 (F := Ideal) P0 P1) (k0_pay10 (F := Ideal) P0 P1) (k0_pay11 (F := Ideal) P0)
          (k0_pay12 (F := Ideal) P0 P1) (k0_pay13 (F := Ideal) P0 P1)
      | ⟨2, _⟩ => k0_pay19 (k0_pay3 (F := Ideal) P0) (k0_pay4 (F := Ideal) P0) (k0_pay5 (F := Ideal) P0) (k0_pay9 (F := Ideal) P0 P1) (k0_pay10 (F := Ideal) P0 P1) (k0_pay11 (F := Ideal) P0)
          (k0_pay12 (F := Ideal) P0 P1) (k0_pay13 (F := Ideal) P0 P1)
      | ⟨3, _⟩ => k0_pay18 (k0_pay3 (F := Ideal) P0) (k0_pay4 (F := Ideal) P0) (k0_pay5 (F := Ideal) P0) (k0_pay7 (F := Ideal) P0 P1) (k0_pay8 (F := Ideal) P0 P1) (k0_pay9 (F := Ideal) P0 P1)
          (k0_pay10 (F := Ideal) P0 P1) (k0_pay11 (F := Ideal) P0) (k0_pay12 (F := Ideal) P0 P1) (k0_pay13 (F := Ideal) P0 P1)) (ix3 n h w)
      = pairField k
          (P0 (ix3 (0 : Fin 1) n (0 : Fin 8))) (P0 (ix3 (0 : Fin 1) n (1 : Fin 8))) (P0 (ix3 (0 : Fin 1) n (2 : Fin 8)))
          (P0 (ix3 (0 : Fin 1) n (3 : Fin 8))) (P0 (ix3 (0 : Fin 1) n (6 : Fin 8))) (P0 (ix3 (0 : Fin 1) n (7 : Fin 8)))
          (P1 (ix4 (0 : Fin 1) h w (0 : Fin 2))) (P1 (ix4 (0 : Fin 1) h w (1 : Fin 2))) := by
  -- the two quantities every field shares, at this element
  have hF : k0_pay16 (k0_pay3 (F := Ideal) P0) (k0_pay9 (F := Ideal) P0 P1) (k0_pay12 (F := Ideal) P0 P1) (k0_pay13 (F := Ideal) P0 P1) (ix3 n h w)
      = falloff (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
          (P0 (ix3 (0 : Fin 1) n (3 : Fin 8)) * P0 (ix3 (0 : Fin 1) n (3 : Fin 8))) (P0 (ix3 (0 : Fin 1) n (6 : Fin 8)))
          (inner (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
            (P0 (ix3 (0 : Fin 1) n (3 : Fin 8)) * P0 (ix3 (0 : Fin 1) n (3 : Fin 8))) (P0 (ix3 (0 : Fin 1) n (7 : Fin 8)))) := by
    rw [falloff_at, gauss_at, innerArg_at, s_at, dy_at, dx_at, c_at, d_at, sg2_at]
    rfl
  have hD : k0_pay15 (k0_pay3 (F := Ideal) P0) (k0_pay9 (F := Ideal) P0 P1) (k0_pay13 (F := Ideal) P0 P1) (ix3 n h w)
      = denom (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
          (P0 (ix3 (0 : Fin 1) n (6 : Fin 8)))
          (inner (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
            (P0 (ix3 (0 : Fin 1) n (3 : Fin 8)) * P0 (ix3 (0 : Fin 1) n (3 : Fin 8))) (P0 (ix3 (0 : Fin 1) n (7 : Fin 8)))) := by
    rw [denom_at, innerArg_at, s_at, dy_at, dx_at, c_at, d_at, sg2_at]
    rfl
  have hM : k0_pay17 (k0_pay3 (F := Ideal) P0) (k0_pay4 (F := Ideal) P0) (k0_pay9 (F := Ideal) P0 P1) (k0_pay10 (F := Ideal) P0 P1) (k0_pay11 (F := Ideal) P0) (k0_pay12 (F := Ideal) P0 P1)
        (k0_pay13 (F := Ideal) P0 P1) (ix3 n h w)
      = mTerm (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
          (P0 (ix3 (0 : Fin 1) n (3 : Fin 8)) * P0 (ix3 (0 : Fin 1) n (3 : Fin 8))) (P0 (ix3 (0 : Fin 1) n (6 : Fin 8)))
          (P0 (ix3 (0 : Fin 1) n (7 : Fin 8)))
          (inner (sqDist (P1 (ix4 (0 : Fin 1) h w (0 : Fin 2)) - P0 (ix3 (0 : Fin 1) n (0 : Fin 8)))
            (P1 (ix4 (0 : Fin 1) h w (1 : Fin 2)) - P0 (ix3 (0 : Fin 1) n (1 : Fin 8))))
            (P0 (ix3 (0 : Fin 1) n (3 : Fin 8)) * P0 (ix3 (0 : Fin 1) n (3 : Fin 8))) (P0 (ix3 (0 : Fin 1) n (7 : Fin 8)))) := by
    rw [m_at, hF, hD, innerArg_at, r_at, s_at, dy_at, dx_at, c_at, d_at, sg2_at]
    rfl
  match k with
  | ⟨0, _⟩ =>
    show k0_pay21 _ _ _ _ _ _ _ _ _ _ (ix3 n h w) = _
    rw [vy_at, hM, hF, tau_at, dy_at, dx_at]
    rfl
  | ⟨1, _⟩ =>
    show k0_pay20 _ _ _ _ _ _ _ _ (ix3 n h w) = _
    rw [vx_at _ _ _ _ (k0_pay7 (F := Ideal) P0 P1) (k0_pay8 (F := Ideal) P0 P1), hM, hF, tau_at, dy_at, dx_at]
    rfl
  | ⟨2, _⟩ =>
    show k0_pay19 _ _ _ _ _ _ _ _ (ix3 n h w) = _
    rw [uy_at _ _ _ _ (k0_pay7 (F := Ideal) P0 P1) (k0_pay8 (F := Ideal) P0 P1), hM, hF, tau_at, dy_at, dx_at]
    rfl
  | ⟨3, _⟩ =>
    show k0_pay18 _ _ _ _ _ _ _ _ _ _ (ix3 n h w) = _
    rw [ux_at, hM, hF, tau_at, dy_at, dx_at]
    rfl

/-- What the body stores, as one function of the two loaded blocks: the four fields' sums over the vortices, stacked. -/
def stored : FVec Ideal S1x16x256x4 .f32 :=
  k0_pay1
    (k0_pay18 (k0_pay3 (F := Ideal) P0) (k0_pay4 (F := Ideal) P0) (k0_pay5 (F := Ideal) P0) (k0_pay7 (F := Ideal) P0 P1) (k0_pay8 (F := Ideal) P0 P1) (k0_pay9 (F := Ideal) P0 P1) (k0_pay10 (F := Ideal) P0 P1)
      (k0_pay11 (F := Ideal) P0) (k0_pay12 (F := Ideal) P0 P1) (k0_pay13 (F := Ideal) P0 P1))
    (k0_pay19 (k0_pay3 (F := Ideal) P0) (k0_pay4 (F := Ideal) P0) (k0_pay5 (F := Ideal) P0) (k0_pay9 (F := Ideal) P0 P1) (k0_pay10 (F := Ideal) P0 P1) (k0_pay11 (F := Ideal) P0) (k0_pay12 (F := Ideal) P0 P1)
      (k0_pay13 (F := Ideal) P0 P1))
    (k0_pay20 (k0_pay3 (F := Ideal) P0) (k0_pay4 (F := Ideal) P0) (k0_pay5 (F := Ideal) P0) (k0_pay9 (F := Ideal) P0 P1) (k0_pay10 (F := Ideal) P0 P1) (k0_pay11 (F := Ideal) P0) (k0_pay12 (F := Ideal) P0 P1)
      (k0_pay13 (F := Ideal) P0 P1))
    (k0_pay21 (k0_pay3 (F := Ideal) P0) (k0_pay4 (F := Ideal) P0) (k0_pay5 (F := Ideal) P0) (k0_pay7 (F := Ideal) P0 P1) (k0_pay8 (F := Ideal) P0 P1) (k0_pay9 (F := Ideal) P0 P1) (k0_pay10 (F := Ideal) P0 P1)
      (k0_pay11 (F := Ideal) P0) (k0_pay12 (F := Ideal) P0 P1) (k0_pay13 (F := Ideal) P0 P1))

/-- THE BLOCK: what the body stores from loaded blocks P0 and P1, at (0, h, w, k), is the sum over the 64 vortices of
    `pairField k` of vortex n's entries of P0 and pixel (h, w)'s pair of P1. -/
theorem block_at (h : Fin 16) (w : Fin 256) (k : Fin 4) :
    stored P0 P1 (ix4 (0 : Fin 1) h w k)
      = ∑ n : Fin 64, pairField k
          (P0 (ix3 (0 : Fin 1) n (0 : Fin 8))) (P0 (ix3 (0 : Fin 1) n (1 : Fin 8))) (P0 (ix3 (0 : Fin 1) n (2 : Fin 8)))
          (P0 (ix3 (0 : Fin 1) n (3 : Fin 8))) (P0 (ix3 (0 : Fin 1) n (6 : Fin 8))) (P0 (ix3 (0 : Fin 1) n (7 : Fin 8)))
          (P1 (ix4 (0 : Fin 1) h w (0 : Fin 2))) (P1 (ix4 (0 : Fin 1) h w (1 : Fin 2))) :=
  (stored_at _ _ _ _ h w k).trans (Finset.sum_congr rfl fun n _ => field_pair P0 P1 k n h w)

/-- The same at any index of the block: its leading coordinate is 0, the only one there is. -/
theorem block_idx (y : S1x16x256x4.Idx) :
    stored P0 P1 y
      = ∑ n : Fin 64, pairField (y 3)
          (P0 (ix3 (0 : Fin 1) n (0 : Fin 8))) (P0 (ix3 (0 : Fin 1) n (1 : Fin 8))) (P0 (ix3 (0 : Fin 1) n (2 : Fin 8)))
          (P0 (ix3 (0 : Fin 1) n (3 : Fin 8))) (P0 (ix3 (0 : Fin 1) n (6 : Fin 8))) (P0 (ix3 (0 : Fin 1) n (7 : Fin 8)))
          (P1 (ix4 (0 : Fin 1) (y 1) (y 2) (0 : Fin 2))) (P1 (ix4 (0 : Fin 1) (y 1) (y 2) (1 : Fin 2))) := by
  obtain ⟨a, h, w, k, rfl⟩ : ∃ (a : Fin 1) (h : Fin 16) (w : Fin 256) (k : Fin 4), y = ix4 a h w k :=
    ⟨y 0, y 1, y 2, y 3, eq_ix4 y⟩
  obtain rfl : a = 0 := Subsingleton.elim _ _
  exact block_at P0 P1 h w k

end Block

end Cert.Falloff.Kernel

end
-- ==== Proof.KernelArray.lean ====
/-
  From the blocks to the whole result array.

  The grid has 4 × 16 points (b, q). At point (b, q) the pipeline stages batch row b of the feature array (block index
  (b, 0, 0)), rows 16q … 16q + 15 of batch row b of the point array (block index (b, q, 0, 0)) and writes the stored block
  back to the same rows of the result (block index (b, q, 0, 0)): an element of a block sits in its array at
  index × extent + coordinate on every axis. So entry (0, n, o) of the staged feature block is the feature array at
  (b, n, o), entry (0, h, w, j) of the staged point block is the point array at (b, 16q + h, w, j), and the stored block,
  which is the specification's sum over the block's vortices and pixel, is block (b, q) of G of the two argument arrays.
  Every index (b, r, w, k) of the result lies in the block of the point (b, r / 16), and every point writes back, so the
  result array after the run is G of the argument arrays.
-/
import proofs.«152878_j83434034692737_1_alg».proof.Proof.Gen.KernelIdeal.Value
import proofs.«152878_j83434034692737_1_alg».proof.Proof.KernelFields

set_option maxRecDepth 16384

noncomputable section

open scoped BigOperators

namespace Cert.Falloff.Kernel

open Cert.KernelIdeal Cert.KernelIdeal.Gen Idealize.ShloMosaic Idealize.ShloMosaic.TcCoe Idealize.SL.Sem
  Idealize.ShloMosaic.ValueIdx Cert.Falloff
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The three index maps over the grid, decided: the feature window follows the result's batch index and stays at 0
    elsewhere; the point window has the result's block index; the result's block index is (b, q, 0, 0) with b ≤ 3, q ≤ 15. -/
theorem index_maps : ∀ t : Fin cfg0.N,
    win0_0.index t (0 : Fin 3) = win0_2.index t (0 : Fin 4) ∧ win0_0.index t (1 : Fin 3) = 0 ∧ win0_0.index t (2 : Fin 3) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 15 :=
  (by decide +kernel : ∀ t : Fin grid0.N, _)

/-- Every block (b, q) of the result is some point's. -/
theorem index_onto : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

/-- WHAT POINT `t` WRITES BACK is block `t` of G of the argument arrays as the region finds them. -/
theorem flushed_eq (c : Dev nD) (t : Fin cfg0.N) :
    (dats m 0 c).flushed 2 t
      = ((cfg0.win 2).blk t).view.read (Elt Ideal) (G (V m c main_arg0) (V m c main_arg1)) := by
  rw [Cert.KernelIdeal.Value.flushed2 m c t]
  unfold out0_2
  rw [View.canon_unit_zero zero4]
  simp only [View.ld_unit_zero (S := S1x64x8) zero3, View.ld_unit_zero (S := S1x16x256x2) zero4]
  obtain ⟨e00, e01, e02, e10, e11, e12, e13, e22, e23, _, _⟩ := index_maps t
  refine funext fun (y : S1x16x256x4.Idx) => ?_
  show stored (iblk m c 0 t) (iblk m c 1 t) y
    = G (V m c main_arg0) (V m c main_arg1) (((cfg0.win 2).blk t).view.emb y)
  refine (block_idx (iblk m c 0 t) (iblk m c 1 t) y).trans ?_
  rw [G_at]
  refine Finset.sum_congr rfl fun n _ => ?_
  have hy0 : (y 0).val < 1 := (y 0).isLt
  have hy1 : (y 1).val < 16 := (y 1).isLt
  have hy2 : (y 2).val < 256 := (y 2).isLt
  have hy3 : (y 3).val < 4 := (y 3).isLt
  -- the field number: the block's last coordinate is the array's
  have hk : (y 3 : Fin 4) = (((cfg0.win 2).blk t).view.emb y) 3 := Fin.ext (by
    show (y 3).val = win0_2.index t (3 : Fin 4) * 4 + 1 * (y 3).val
    omega)
  -- the staged feature block's entry (0, n, o) is the feature array's at (b, n, o)
  have hv : ∀ o : Fin 8, iblk m c 0 t (ix3 (0 : Fin 1) n o)
      = V m c main_arg0 (ix3 ((((cfg0.win 2).blk t).view.emb y) 0) n o) := fun o => by
    show V m c main_arg0 (((cfg0.win 0).blk t).view.emb (ix3 (0 : Fin 1) n o)) = _
    refine congrArg (V m c main_arg0) (funext fun a => Fin.ext ?_)
    match a with
    | ⟨0, _⟩ =>
      show win0_0.index t (0 : Fin 3) * 1 + 1 * 0 = win0_2.index t (0 : Fin 4) * 1 + 1 * (y 0).val
      omega
    | ⟨1, _⟩ =>
      show win0_0.index t (1 : Fin 3) * 64 + 1 * n.val = n.val
      omega
    | ⟨2, _⟩ =>
      show win0_0.index t (2 : Fin 3) * 8 + 1 * o.val = o.val
      omega
  -- the staged point block's entry (0, h, w, j) is the point array's at the array index under (0, h, w, ·)
  have hp : ∀ j : Fin 2, iblk m c 1 t (ix4 (0 : Fin 1) (y 1) (y 2) j)
      = V m c main_arg1 (ix4 ((((cfg0.win 2).blk t).view.emb y) 0) ((((cfg0.win 2).blk t).view.emb y) 1)
          ((((cfg0.win 2).blk t).view.emb y) 2) j) := fun j => by
    show V m c main_arg1 (((cfg0.win 1).blk t).view.emb (ix4 (0 : Fin 1) (y 1) (y 2) j)) = _
    refine congrArg (V m c main_arg1) (funext fun a => Fin.ext ?_)
    match a with
    | ⟨0, _⟩ =>
      show win0_1.index t (0 : Fin 4) * 1 + 1 * 0 = win0_2.index t (0 : Fin 4) * 1 + 1 * (y 0).val
      omega
    | ⟨1, _⟩ =>
      show win0_1.index t (1 : Fin 4) * 16 + 1 * (y 1).val = win0_2.index t (1 : Fin 4) * 16 + 1 * (y 1).val
      omega
    | ⟨2, _⟩ =>
      show win0_1.index t (2 : Fin 4) * 256 + 1 * (y 2).val = win0_2.index t (2 : Fin 4) * 256 + 1 * (y 2).val
      omega
    | ⟨3, _⟩ =>
      show win0_1.index t (3 : Fin 4) * 2 + 1 * j.val = j.val
      omega
  exact pairField_congr hk (hv 0) (hv 1) (hv 2) (hv 3) (hv 6) (hv 7) (hp 0) (hp 1)

/-- An index of the result is in point `t`'s block iff each coordinate is in the block's range on its axis. -/
theorem mem_block (t : Fin cfg0.N) (i : S4x256x256x4.Idx) :
    i ∈ ((cfg0.win 2).blk t).view.set ↔ ∀ a : Fin 4, win0_2.index t a * S1x16x256x4.size a ≤ (i a).val
      ∧ (i a).val < win0_2.index t a * S1x16x256x4.size a + S1x16x256x4.size a := by
  show i ∈ ((View.whole main_v0).slice (win0_2.rect t)).set ↔ _
  rw [View.set_slice_whole, Rect.mem_set_unit]
  exact Iff.rfl

/-- Every index of the result is in the block of the point (its batch row, its pixel row over 16), which writes back. -/
theorem covered (i : S4x256x256x4.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 256 := (i 2).isLt
  have hi3 : (i 3).val < 4 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 16 ≤ (i 1).val ∧ (i 1).val < win0_2.index t (1 : Fin 4) * 16 + 16
    omega
  | ⟨2, _⟩ =>
    show win0_2.index t (2 : Fin 4) * 256 ≤ (i 2).val ∧ (i 2).val < win0_2.index t (2 : Fin 4) * 256 + 256
    omega
  | ⟨3, _⟩ =>
    show win0_2.index t (3 : Fin 4) * 4 ≤ (i 3).val ∧ (i 3).val < win0_2.index t (3 : Fin 4) * 4 + 4
    omega

/-- THE RESULT ARRAY after the run is G of the argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) covered

/-- The kernel's run: every weakly fair execution terminates with the result array at G of the argument arrays as
    launched, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Falloff.Kernel

end
-- ==== Proof.RefLoads.lean ====
/-
  The reference's first operations, read at one element.

  The reference works on five-axis values indexed (b, h, w, n, ·): batch row, pixel row, pixel column, vortex, and a last
  axis of extent 1 (or 2 for the pair of differences). It cuts the columns σ, c, d, τ (entries 3, 6, 7, 2) out of the
  feature array and re-lays each as a [4, 1, 1, 64, 1] column over (b, n); it stacks the columns y, x (entries 0, 1) into
  a [4, 64, 2] array of vortex positions, broadcasts that and the point array to [4, 256, 256, 64, 2] and subtracts, so
  that the difference at (b, h, w, n, j) is point (b, h, w)'s coordinate j less vortex (b, n)'s entry j; and it sums the
  squared differences over the last axis from the initial value 0, which is 0 + (dy·dy + dx·dx) = dy·dy + dx·dx.
-/
import proofs.«152878_j83434034692737_1_alg».proof.Proof.Gen.ReferenceIdeal.Run
import proofs.«152878_j83434034692737_1_alg».proof.Proof.Spec
import Idealize.ShloMosaic.Lib.Pipeline.Value
import Idealize.ShloMosaic.Lib.ValueIdx
import Idealize.ShloMosaic.PureOps.Ideal.Laws

noncomputable section

open scoped BigOperators

namespace Cert.Falloff.Ref

open Cert.ReferenceIdeal Cert.ReferenceIdeal.Gen Cert.ReferenceIdeal.Value Idealize.ShloMosaic Idealize.ShloMosaic.ValueIdx
  Idealize.ShloMosaic.StableHlo Cert.Falloff

/-! ## The layout operations of the reference, read at an index -/

/-- A [4, 1, 1, 64, 1] column broadcast to [4, 256, 256, 64, 1] reads, at (b, h, w, n, 0), the column at (b, n). -/
theorem bcast_col5 {α : Type} (v : S4x1x1x64x1.Idx → α) (b : Fin 4) (h w : Fin 256) (n : Fin 64) :
    broadcastInDim S4x256x256x64x1 ![0, 1, 2, 3, 4] bcast_S4x1x1x64x1_S4x256x256x64x1_0_1_2_3_4 v (ix5 b h w n (0 : Fin 1))
      = v (ix5 b (0 : Fin 1) (0 : Fin 1) n (0 : Fin 1)) :=
  broadcastInDim_apply _ _ v (ix5 b h w n (0 : Fin 1)) (ix5 b (0 : Fin 1) (0 : Fin 1) n (0 : Fin 1)) (fun a => by
    match a with
    | ⟨0, _⟩ => rfl
    | ⟨1, _⟩ => rfl
    | ⟨2, _⟩ => rfl
    | ⟨3, _⟩ => rfl
    | ⟨4, _⟩ => rfl)

/-- A scalar constant broadcast to [4, 256, 256, 64, 1] reads everywhere the extended real its word denotes. -/
theorem bcast_const5 (wd : BitVec 32) (j : S4x256x256x64x1.Idx) :
    broadcastInDim S4x256x256x64x1 ![] bcast_S_S4x256x256x64x1 (constant (F := Ideal) S_ .f32 wd) j = Ideal.ofBits .f32 wd :=
  broadcastInDim_apply _ _ (constant (F := Ideal) S_ .f32 wd) j ix0 (fun a => a.elim0)

/-- The column broadcast as one function: it forgets the pixel. -/
theorem bcast_col5_fun {α : Type} (v : S4x1x1x64x1.Idx → α) :
    broadcastInDim S4x256x256x64x1 ![0, 1, 2, 3, 4] bcast_S4x1x1x64x1_S4x256x256x64x1_0_1_2_3_4 v
      = fun i => v (ix5 (i 0) (0 : Fin 1) (0 : Fin 1) (i 3) (0 : Fin 1)) :=
  funext fun i => broadcastInDim_apply _ _ v i (ix5 (i 0) (0 : Fin 1) (0 : Fin 1) (i 3) (0 : Fin 1)) (fun a => by
    match a with
    | ⟨0, _⟩ => rfl
    | ⟨1, _⟩ => rfl
    | ⟨2, _⟩ => rfl
    | ⟨3, _⟩ => rfl
    | ⟨4, _⟩ => rfl)

/-- The scalar broadcast as one function: the constant. -/
theorem bcast_const5_fun (wd : BitVec 32) :
    broadcastInDim S4x256x256x64x1 ![] bcast_S_S4x256x256x64x1 (constant (F := Ideal) S_ .f32 wd)
      = fun _ => Ideal.ofBits .f32 wd :=
  funext fun j => bcast_const5 wd j

/-- Entry `o` of the feature array, cut out as [4, 64, 1], flattened to [4, 64] and re-laid as a [4, 1, 1, 64, 1] column,
    reads at (b, n) the array at (b, n, o). -/
theorem col5_read {α : Type} (v : S4x64x8.Idx → α) (o : Nat) (ho : o < 8) (hs : S4x64x8.Slices ![0, 0, o] S4x64x1)
    (b : Fin 4) (n : Fin 64) :
    broadcastInDim S4x1x1x64x1 ![0, 3] bcast_S4x64_S4x1x1x64x1_0_3
        (shapeCast S4x64 (extractStridedSlice S4x64x1 ![0, 0, o] v hs) shapeCasts_S4x64x1_S4x64)
        (ix5 b (0 : Fin 1) (0 : Fin 1) n (0 : Fin 1))
      = v (ix3 b n (⟨o, ho⟩ : Fin 8)) := by
  refine (broadcastInDim_apply _ _ _ (ix5 b (0 : Fin 1) (0 : Fin 1) n (0 : Fin 1)) (ix2 b n) (fun a => by
    match a with
    | ⟨0, _⟩ => rfl
    | ⟨1, _⟩ => rfl)).trans ?_
  refine (shapeCast_apply _ _ (ix2 b n) (ix3 b n (0 : Fin 1)) ?_).trans ?_
  · rw [Shape.rowMajor_val_three, Shape.rowMajor_val_two]
    show (b.val * 64 + n.val) * 1 + 0 = b.val * 64 + n.val
    omega
  exact extractStridedSlice_apply _ _ hs (ix3 b n (0 : Fin 1)) (ix3 b n (⟨o, ho⟩ : Fin 8)) (fun a => by
    match a with
    | ⟨0, _⟩ => show b.val = 0 + b.val; omega
    | ⟨1, _⟩ => show n.val = 0 + n.val; omega
    | ⟨2, _⟩ => show o = o + 0; omega)

/-- The same entry re-laid as a [4, 64, 1] column (a piece of the stacked vortex positions). -/
theorem col3_read {α : Type} (v : S4x64x8.Idx → α) (o : Nat) (ho : o < 8) (hs : S4x64x8.Slices ![0, 0, o] S4x64x1)
    (b : Fin 4) (n : Fin 64) :
    broadcastInDim S4x64x1 ![0, 1] bcast_S4x64_S4x64x1_0_1
        (shapeCast S4x64 (extractStridedSlice S4x64x1 ![0, 0, o] v hs) shapeCasts_S4x64x1_S4x64) (ix3 b n (0 : Fin 1))
      = v (ix3 b n (⟨o, ho⟩ : Fin 8)) := by
  refine (broadcastInDim_apply _ _ _ (ix3 b n (0 : Fin 1)) (ix2 b n) (fun a => by
    match a with
    | ⟨0, _⟩ => rfl
    | ⟨1, _⟩ => rfl)).trans ?_
  refine (shapeCast_apply _ _ (ix2 b n) (ix3 b n (0 : Fin 1)) ?_).trans ?_
  · rw [Shape.rowMajor_val_three, Shape.rowMajor_val_two]
    show (b.val * 64 + n.val) * 1 + 0 = b.val * 64 + n.val
    omega
  exact extractStridedSlice_apply _ _ hs (ix3 b n (0 : Fin 1)) (ix3 b n (⟨o, ho⟩ : Fin 8)) (fun a => by
    match a with
    | ⟨0, _⟩ => show b.val = 0 + b.val; omega
    | ⟨1, _⟩ => show n.val = 0 + n.val; omega
    | ⟨2, _⟩ => show o = o + 0; omega)

/-- The point array broadcast over the vortex axis reads, at (b, h, w, n, j), the point array at (b, h, w, j). -/
theorem point_read {α : Type} (v : S4x256x256x2.Idx → α) (b : Fin 4) (h w : Fin 256) (n : Fin 64) (j : Fin 2) :
    broadcastInDim S4x256x256x64x2 ![0, 1, 2, 3, 4] bcast_S4x256x256x1x2_S4x256x256x64x2_0_1_2_3_4
        (broadcastInDim S4x256x256x1x2 ![0, 1, 2, 4] bcast_S4x256x256x2_S4x256x256x1x2_0_1_2_4 v) (ix5 b h w n j)
      = v (ix4 b h w j) := by
  refine (broadcastInDim_apply _ _ _ (ix5 b h w n j) (ix5 b h w (0 : Fin 1) j) (fun a => by
    match a with
    | ⟨0, _⟩ => rfl
    | ⟨1, _⟩ => rfl
    | ⟨2, _⟩ => rfl
    | ⟨3, _⟩ => rfl
    | ⟨4, _⟩ => rfl)).trans ?_
  exact broadcastInDim_apply _ _ v (ix5 b h w (0 : Fin 1) j) (ix4 b h w j) (fun a => by
    match a with
    | ⟨0, _⟩ => rfl
    | ⟨1, _⟩ => rfl
    | ⟨2, _⟩ => rfl
    | ⟨3, _⟩ => rfl)

/-- The stacked vortex positions broadcast over the pixels read, at (b, h, w, n, j), piece j of the stack at (b, n, 0). -/
theorem position_read {α : Type} (q0 q1 : S4x64x1.Idx → α) (b : Fin 4) (h w : Fin 256) (n : Fin 64) (j : Fin 2) :
    broadcastInDim S4x256x256x64x2 ![0, 1, 2, 3, 4] bcast_S4x1x1x64x2_S4x256x256x64x2_0_1_2_3_4
        (broadcastInDim S4x1x1x64x2 ![0, 3, 4] bcast_S4x64x2_S4x1x1x64x2_0_3_4
          (concatenate S4x64x2 2 [⟨S4x64x1, q0⟩, ⟨S4x64x1, q1⟩] concatenates_S4x64x1_S4x64x1_S4x64x2_d2)) (ix5 b h w n j)
      = (match j with | ⟨0, _⟩ => q0 | ⟨1, _⟩ => q1) (ix3 b n (0 : Fin 1)) := by
  refine (broadcastInDim_apply _ _ _ (ix5 b h w n j) (ix5 b (0 : Fin 1) (0 : Fin 1) n j) (fun a => by
    match a with
    | ⟨0, _⟩ => rfl
    | ⟨1, _⟩ => rfl
    | ⟨2, _⟩ => rfl
    | ⟨3, _⟩ => rfl
    | ⟨4, _⟩ => rfl)).trans ?_
  refine (broadcastInDim_apply _ _ _ (ix5 b (0 : Fin 1) (0 : Fin 1) n j) (ix3 b n j) (fun a => by
    match a with
    | ⟨0, _⟩ => rfl
    | ⟨1, _⟩ => rfl
    | ⟨2, _⟩ => rfl)).trans ?_
  have hi : ∀ (j : Fin 2) (c : Fin S4x64x1.rank), c.cast (rfl : S4x64x1.rank = S4x64x2.rank) ≠ (2 : Fin 3) →
      ((ix3 b n (0 : Fin 1) : S4x64x1.Idx) c).val = ((ix3 b n j : S4x64x2.Idx) (c.cast rfl)).val := fun j c hc => by
    match c with
    | ⟨0, _⟩ => rfl
    | ⟨1, _⟩ => rfl
    | ⟨2, _⟩ => exact absurd rfl hc
  match j with
  | ⟨0, _⟩ =>
    exact concatenate_apply_piece (t := S4x64x2) (2 : Fin 3) [⟨S4x64x1, q0⟩, ⟨S4x64x1, q1⟩] concatenates_S4x64x1_S4x64x1_S4x64x2_d2
      (ix3 b n _) 0 (show (0 : Nat) < 2 by decide) S4x64x1 q0 rfl rfl 0 rfl (ix3 b n (0 : Fin 1)) (hi _) rfl
  | ⟨1, _⟩ =>
    exact concatenate_apply_piece (t := S4x64x2) (2 : Fin 3) [⟨S4x64x1, q0⟩, ⟨S4x64x1, q1⟩] concatenates_S4x64x1_S4x64x1_S4x64x2_d2
      (ix3 b n _) 1 (show (1 : Nat) < 2 by decide) S4x64x1 q1 rfl rfl 1 rfl (ix3 b n (0 : Fin 1)) (hi _) rfl

/-! ## The columns, the differences and the squared distance -/

variable (V0 : Valuation τ sig (Elt Ideal))

/-- The two argument arrays as the reference finds them, and the named intermediate values of its run, each as an array
    of extended reals. -/
abbrev vfOf : S4x64x8.Idx → EReal := V0 (Proc.devRef .tc main_arg0)
abbrev ptsOf : S4x256x256x2.Idx → EReal := V0 (Proc.devRef .tc main_arg1)
abbrev sgOf : S4x1x1x64x1.Idx → EReal := res_main_v21 V0
abbrev cOf : S4x1x1x64x1.Idx → EReal := res_main_v22 V0
abbrev dOf : S4x1x1x64x1.Idx → EReal := res_main_v23 V0
abbrev tauOf : S4x1x1x64x1.Idx → EReal := res_main_v24 V0
abbrev diffOf : S4x256x256x64x2.Idx → EReal := res_main_v27 V0
abbrev sOf : S4x256x256x64x1.Idx → EReal := res_main_v30 V0
abbrev rOf : S4x256x256x64x1.Idx → EReal := res_main_v31 V0
abbrev eOf : S4x256x256x64x1.Idx → EReal := res_main_v43 V0
abbrev denOf : S4x256x256x64x1.Idx → EReal := res_main_v47 V0
abbrev fOf : S4x256x256x64x1.Idx → EReal := res_main_v53 V0
abbrev mOf : S4x256x256x64x1.Idx → EReal := res_main_v71 V0
abbrev dyOf : S4x256x256x64x1.Idx → EReal := res_main_v72 V0
abbrev dxOf : S4x256x256x64x1.Idx → EReal := res_main_v73 V0

/-- The column σ (entry 3). -/
theorem sig_at (b : Fin 4) (n : Fin 64) :
    sgOf V0 (ix5 b (0 : Fin 1) (0 : Fin 1) n (0 : Fin 1)) = vfOf V0 (ix3 b n (3 : Fin 8)) := by
  unfold sgOf res_main_v21
  exact col5_read (vfOf V0) 3 (by decide) slices_S4x64x8_S4x64x1_0_0_3 b n

/-- The column c (entry 6). -/
theorem c_at (b : Fin 4) (n : Fin 64) :
    cOf V0 (ix5 b (0 : Fin 1) (0 : Fin 1) n (0 : Fin 1)) = vfOf V0 (ix3 b n (6 : Fin 8)) := by
  unfold cOf res_main_v22
  exact col5_read (vfOf V0) 6 (by decide) slices_S4x64x8_S4x64x1_0_0_6 b n

/-- The column d (entry 7). -/
theorem d_at (b : Fin 4) (n : Fin 64) :
    dOf V0 (ix5 b (0 : Fin 1) (0 : Fin 1) n (0 : Fin 1)) = vfOf V0 (ix3 b n (7 : Fin 8)) := by
  unfold dOf res_main_v23
  exact col5_read (vfOf V0) 7 (by decide) slices_S4x64x8_S4x64x1_0_0_7 b n

/-- The column τ (entry 2). -/
theorem tau_at (b : Fin 4) (n : Fin 64) :
    tauOf V0 (ix5 b (0 : Fin 1) (0 : Fin 1) n (0 : Fin 1)) = vfOf V0 (ix3 b n (2 : Fin 8)) := by
  unfold tauOf res_main_v24
  exact col5_read (vfOf V0) 2 (by decide) slices_S4x64x8_S4x64x1_0_0_2 b n

/-- dy: the difference on the last axis' coordinate 0 is the point's first coordinate less the vortex's entry 0. -/
theorem dy_at (b : Fin 4) (h w : Fin 256) (n : Fin 64) :
    diffOf V0 (ix5 b h w n (0 : Fin 2)) = ptsOf V0 (ix4 b h w (0 : Fin 2)) - vfOf V0 (ix3 b n (0 : Fin 8)) := by
  unfold diffOf res_main_v27
  refine congrArg₂ (· - ·) (point_read (ptsOf V0) b h w n (0 : Fin 2)) ?_
  refine (position_read _ _ b h w n (0 : Fin 2)).trans ?_
  exact col3_read (vfOf V0) 0 (by decide) slices_S4x64x8_S4x64x1_0_0_0 b n

/-- dx: coordinate 1 likewise, against the vortex's entry 1. -/
theorem dx_at (b : Fin 4) (h w : Fin 256) (n : Fin 64) :
    diffOf V0 (ix5 b h w n (1 : Fin 2)) = ptsOf V0 (ix4 b h w (1 : Fin 2)) - vfOf V0 (ix3 b n (1 : Fin 8)) := by
  unfold diffOf res_main_v27
  refine congrArg₂ (· - ·) (point_read (ptsOf V0) b h w n (1 : Fin 2)) ?_
  refine (position_read _ _ b h w n (1 : Fin 2)).trans ?_
  exact col3_read (vfOf V0) 1 (by decide) slices_S4x64x8_S4x64x1_0_0_1 b n

/-- The squared distance: the sum over the last axis (extent 2) of the squared differences from the initial value 0. -/
theorem s_at (b : Fin 4) (h w : Fin 256) (n : Fin 64) :
    sOf V0 (ix5 b h w n (0 : Fin 1))
      = sqDist (diffOf V0 (ix5 b h w n (0 : Fin 2))) (diffOf V0 (ix5 b h w n (1 : Fin 2))) := by
  unfold sOf res_main_v30
  refine (broadcastInDim_apply _ _ _ (ix5 b h w n (0 : Fin 1)) (ix4 b h w n) (fun a => by
    match a with
    | ⟨0, _⟩ => rfl
    | ⟨1, _⟩ => rfl
    | ⟨2, _⟩ => rfl
    | ⟨3, _⟩ => rfl)).trans ?_
  have hR : S4x256x256x64x2.Reduces [4] S4x256x256x64 := by decide
  refine (Ideal.hostReduceAdd_single reducesTo_S4x256x256x64x2_S4x256x256x64_d4 hR
    (mulf (F := Ideal) (φ := .f32) (diffOf V0) (diffOf V0)) (Ideal.ofBits .f32 0x00000000#32) (ix4 b h w n)).trans ?_
  have e0 : hR.lift (ix4 b h w n) (0 : Fin 2) = ix5 b h w n (0 : Fin 2) := funext fun a => by
    match a with
    | ⟨0, _⟩ => rfl
    | ⟨1, _⟩ => rfl
    | ⟨2, _⟩ => rfl
    | ⟨3, _⟩ => rfl
    | ⟨4, _⟩ => rfl
  have e1 : hR.lift (ix4 b h w n) (1 : Fin 2) = ix5 b h w n (1 : Fin 2) := funext fun a => by
    match a with
    | ⟨0, _⟩ => rfl
    | ⟨1, _⟩ => rfl
    | ⟨2, _⟩ => rfl
    | ⟨3, _⟩ => rfl
    | ⟨4, _⟩ => rfl
  show Ideal.ofBits .f32 0x00000000#32 + ∑ k : Fin 2,
    (diffOf V0 (hR.lift (ix4 b h w n) k) * diffOf V0 (hR.lift (ix4 b h w n) k)) = _
  rw [Fin.sum_univ_two, Ideal.ofBits_zero_f32, zero_add, e0, e1]
  rfl

end Cert.Falloff.Ref

end
-- ==== Proof.RefFields.lean ====
/-
  The rest of the reference, read at one element, and its result as the specification's sum.

  Over the squared distance s, the columns σ, c, d, τ read at (b, n) and the two differences, the reference computes
  pointwise on [4, 256, 256, 64, 1] exactly the specification's e₁, denom, falloff and m (its negations are the host's
  negate, −a; its constants are scalars broadcast everywhere), then the four fields of the pair, which it stacks on the
  last axis in the order v_y, v_x, u_y, u_x and sums over the vortex axis from the initial value 0. So the result at
  (b, h, w, k) is 0 + Σ_n field k of (vortex (b, n), pixel (b, h, w)), which is the specification's G.
-/
import proofs.«152878_j83434034692737_1_alg».proof.Proof.RefLoads

noncomputable section

open scoped BigOperators

namespace Cert.Falloff.Ref

open Cert.ReferenceIdeal Cert.ReferenceIdeal.Gen Cert.ReferenceIdeal.Value Idealize.ShloMosaic Idealize.ShloMosaic.ValueIdx
  Idealize.ShloMosaic.StableHlo Cert.Falloff

variable (V0 : Valuation τ sig (Elt Ideal))

/-! ## The pointwise operations over the named values -/

/-- √s, pointwise. -/
theorem r_at (i : S4x256x256x64x1.Idx) : rOf V0 i = Ideal.sqrt (sOf V0 i) := rfl

/-- e₁ = exp((−10·s)/(d·(σ·σ))) at (b, h, w, n). -/
theorem e1_at (b : Fin 4) (h w : Fin 256) (n : Fin 64) :
    eOf V0 (ix5 b h w n (0 : Fin 1)) = inner (sOf V0 (ix5 b h w n (0 : Fin 1))) (sgOf V0 (ix5 b (0 : Fin 1) (0 : Fin 1) n (0 : Fin 1)) * sgOf V0 (ix5 b (0 : Fin 1) (0 : Fin 1) n (0 : Fin 1))) (dOf V0 (ix5 b (0 : Fin 1) (0 : Fin 1) n (0 : Fin 1))) := by
  unfold eOf res_main_v43
  simp only [bcast_col5_fun, bcast_const5_fun]
  rfl

/-- denom = √(s + c·e₁). -/
theorem denom_at (b : Fin 4) (h w : Fin 256) (n : Fin 64) :
    denOf V0 (ix5 b h w n (0 : Fin 1)) = denom (sOf V0 (ix5 b h w n (0 : Fin 1))) (cOf V0 (ix5 b (0 : Fin 1) (0 : Fin 1) n (0 : Fin 1))) (eOf V0 (ix5 b h w n (0 : Fin 1))) := by
  unfold denOf res_main_v47
  simp only [bcast_col5_fun]
  rfl

/-- falloff = exp(−s/(σ·σ)) · (exp(−c·e₁) / denom). -/
theorem falloff_at (b : Fin 4) (h w : Fin 256) (n : Fin 64) :
    fOf V0 (ix5 b h w n (0 : Fin 1)) = falloff (sOf V0 (ix5 b h w n (0 : Fin 1))) (sgOf V0 (ix5 b (0 : Fin 1) (0 : Fin 1) n (0 : Fin 1)) * sgOf V0 (ix5 b (0 : Fin 1) (0 : Fin 1) n (0 : Fin 1))) (cOf V0 (ix5 b (0 : Fin 1) (0 : Fin 1) n (0 : Fin 1))) (eOf V0 (ix5 b h w n (0 : Fin 1))) := by
  have hD := denom_at V0 b h w n
  unfold fOf res_main_v53
  simp only [bcast_col5_fun]
  show Ideal.exp (Ideal.div (-(sOf V0 (ix5 b h w n (0 : Fin 1)))) (sgOf V0 (ix5 b (0 : Fin 1) (0 : Fin 1) n (0 : Fin 1)) * sgOf V0 (ix5 b (0 : Fin 1) (0 : Fin 1) n (0 : Fin 1))))
      * Ideal.div (Ideal.exp (-(cOf V0 (ix5 b (0 : Fin 1) (0 : Fin 1) n (0 : Fin 1))) * eOf V0 (ix5 b h w n (0 : Fin 1)))) (denOf V0 (ix5 b h w n (0 : Fin 1))) = _
  rw [hD]
  rfl

/-- m, over the falloff, √s and the denominator at that element. -/
theorem m_at (b : Fin 4) (h w : Fin 256) (n : Fin 64) :
    mOf V0 (ix5 b h w n (0 : Fin 1))
      = cTwo * fOf V0 (ix5 b h w n (0 : Fin 1)) * rOf V0 (ix5 b h w n (0 : Fin 1))
          * (cOne - Ideal.div (cOf V0 (ix5 b (0 : Fin 1) (0 : Fin 1) n (0 : Fin 1)) * eOf V0 (ix5 b h w n (0 : Fin 1))) (dOf V0 (ix5 b (0 : Fin 1) (0 : Fin 1) n (0 : Fin 1)) * (sgOf V0 (ix5 b (0 : Fin 1) (0 : Fin 1) n (0 : Fin 1)) * sgOf V0 (ix5 b (0 : Fin 1) (0 : Fin 1) n (0 : Fin 1)))))
          * (Ideal.div cHalf (denOf V0 (ix5 b h w n (0 : Fin 1))) - denOf V0 (ix5 b h w n (0 : Fin 1)))
          * rOf V0 (ix5 b h w n (0 : Fin 1)) + fOf V0 (ix5 b h w n (0 : Fin 1)) := by
  unfold mOf res_main_v71
  simp only [bcast_col5_fun, bcast_const5_fun]
  rfl

/-- The slice of the differences at coordinate 0 of the last axis is dy … -/
theorem dySlice_at (b : Fin 4) (h w : Fin 256) (n : Fin 64) :
    dyOf V0 (ix5 b h w n (0 : Fin 1)) = diffOf V0 (ix5 b h w n (0 : Fin 2)) := by
  unfold dyOf res_main_v72
  exact extractStridedSlice_apply _ (diffOf V0) slices_S4x256x256x64x2_S4x256x256x64x1_0_0_0_0_0 (ix5 b h w n (0 : Fin 1))
    (ix5 b h w n (0 : Fin 2)) (fun a => by
    match a with
    | ⟨0, _⟩ => show b.val = 0 + b.val; omega
    | ⟨1, _⟩ => show h.val = 0 + h.val; omega
    | ⟨2, _⟩ => show w.val = 0 + w.val; omega
    | ⟨3, _⟩ => show n.val = 0 + n.val; omega
    | ⟨4, _⟩ => show 0 = 0 + 0; omega)

/-- … and at coordinate 1 it is dx. -/
theorem dxSlice_at (b : Fin 4) (h w : Fin 256) (n : Fin 64) :
    dxOf V0 (ix5 b h w n (0 : Fin 1)) = diffOf V0 (ix5 b h w n (1 : Fin 2)) := by
  unfold dxOf res_main_v73
  exact extractStridedSlice_apply _ (diffOf V0) slices_S4x256x256x64x2_S4x256x256x64x1_0_0_0_0_1 (ix5 b h w n (0 : Fin 1))
    (ix5 b h w n (1 : Fin 2)) (fun a => by
    match a with
    | ⟨0, _⟩ => show b.val = 0 + b.val; omega
    | ⟨1, _⟩ => show h.val = 0 + h.val; omega
    | ⟨2, _⟩ => show w.val = 0 + w.val; omega
    | ⟨3, _⟩ => show n.val = 0 + n.val; omega
    | ⟨4, _⟩ => show 1 = 1 + 0; omega)

/-! ## The shared quantities as the specification's -/

section Shared

variable (b : Fin 4) (h w : Fin 256) (n : Fin 64)

theorem s_spec : sOf V0 (ix5 b h w n (0 : Fin 1)) = sqDist (ptsOf V0 (ix4 b h w (0 : Fin 2)) - vfOf V0 (ix3 b n (0 : Fin 8))) (ptsOf V0 (ix4 b h w (1 : Fin 2)) - vfOf V0 (ix3 b n (1 : Fin 8))) := by
  rw [s_at, dy_at, dx_at]

theorem e1_spec : eOf V0 (ix5 b h w n (0 : Fin 1)) = inner (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (7 : Fin 8))) := by
  rw [e1_at, s_spec, sig_at, d_at]

theorem denom_spec : denOf V0 (ix5 b h w n (0 : Fin 1)) = denom (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (6 : Fin 8))) (inner (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (7 : Fin 8)))) := by
  rw [denom_at, s_spec, c_at, e1_spec]

theorem falloff_spec : fOf V0 (ix5 b h w n (0 : Fin 1)) = falloff (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (6 : Fin 8))) (inner (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (7 : Fin 8)))) := by
  rw [falloff_at, s_spec, sig_at, c_at, e1_spec]

theorem m_spec : mOf V0 (ix5 b h w n (0 : Fin 1)) = mTerm (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (6 : Fin 8))) (vfOf V0 (ix3 b n (7 : Fin 8))) (inner (sqDist (ptsOf V0 (ix4 b h w (0 : Fin 2)) - vfOf V0 (ix3 b n (0 : Fin 8))) (ptsOf V0 (ix4 b h w (1 : Fin 2)) - vfOf V0 (ix3 b n (1 : Fin 8)))) (vfOf V0 (ix3 b n (3 : Fin 8)) * vfOf V0 (ix3 b n (3 : Fin 8))) (vfOf V0 (ix3 b n (7 : Fin 8)))) := by
  rw [m_at, falloff_spec, denom_spec, r_at, s_spec, e1_spec, sig_at, c_at, d_at]
  rfl

end Shared

/-! ## The four pieces of the final stack -/

/-- The piece v_y: τ·((dx/dy)·m − (dy/dx)·falloff). -/
def pieceVY : S4x256x256x64x1.Idx → EReal :=
  mulf (broadcastInDim S4x256x256x64x1 ![0, 1, 2, 3, 4] bcast_S4x1x1x64x1_S4x256x256x64x1_0_1_2_3_4 (res_main_v24 V0)) (subf (mulf (Host.divf (res_main_v73 V0) (res_main_v72 V0)) (res_main_v71 V0)) (mulf (Host.divf (res_main_v72 V0) (res_main_v73 V0)) (res_main_v53 V0)))
/-- The piece v_x: τ·(m + falloff). -/
def pieceVX : S4x256x256x64x1.Idx → EReal :=
  mulf (broadcastInDim S4x256x256x64x1 ![0, 1, 2, 3, 4] bcast_S4x1x1x64x1_S4x256x256x64x1_0_1_2_3_4 (res_main_v24 V0)) (addf (res_main_v71 V0) (res_main_v53 V0))
/-- The piece u_y: (−τ)·(m + falloff). -/
def pieceUY : S4x256x256x64x1.Idx → EReal :=
  mulf (broadcastInDim S4x256x256x64x1 ![0, 1, 2, 3, 4] bcast_S4x1x1x64x1_S4x256x256x64x1_0_1_2_3_4 (Host.negf (res_main_v24 V0))) (addf (res_main_v71 V0) (res_main_v53 V0))
/-- The piece u_x: (−τ)·((dy/dx)·m − (dx/dy)·falloff). -/
def pieceUX : S4x256x256x64x1.Idx → EReal :=
  mulf (broadcastInDim S4x256x256x64x1 ![0, 1, 2, 3, 4] bcast_S4x1x1x64x1_S4x256x256x64x1_0_1_2_3_4 (Host.negf (res_main_v24 V0))) (subf (mulf (Host.divf (res_main_v72 V0) (res_main_v73 V0)) (res_main_v71 V0)) (mulf (Host.divf (res_main_v73 V0) (res_main_v72 V0)) (res_main_v53 V0)))

/-- Piece k at (b, h, w, n) is the specification's `pairField k` of vortex (b, n)'s entries and pixel (b, h, w)'s pair. -/
theorem piece_pair (k : Fin 4) (b : Fin 4) (h w : Fin 256) (n : Fin 64) :
    (match k with | ⟨0, _⟩ => pieceVY V0 | ⟨1, _⟩ => pieceVX V0 | ⟨2, _⟩ => pieceUY V0 | ⟨3, _⟩ => pieceUX V0) (ix5 b h w n (0 : Fin 1))
      = pairField k (vfOf V0 (ix3 b n (0 : Fin 8))) (vfOf V0 (ix3 b n (1 : Fin 8))) (vfOf V0 (ix3 b n (2 : Fin 8))) (vfOf V0 (ix3 b n (3 : Fin 8))) (vfOf V0 (ix3 b n (6 : Fin 8))) (vfOf V0 (ix3 b n (7 : Fin 8))) (ptsOf V0 (ix4 b h w (0 : Fin 2))) (ptsOf V0 (ix4 b h w (1 : Fin 2))) := by
  match k with
  | ⟨0, _⟩ =>
    show pieceVY V0 (ix5 b h w n (0 : Fin 1)) = _
    unfold pieceVY
    simp only [bcast_col5_fun]
    show tauOf V0 (ix5 b (0 : Fin 1) (0 : Fin 1) n (0 : Fin 1)) * (Ideal.div (dxOf V0 (ix5 b h w n (0 : Fin 1))) (dyOf V0 (ix5 b h w n (0 : Fin 1))) * mOf V0 (ix5 b h w n (0 : Fin 1))
        - Ideal.div (dyOf V0 (ix5 b h w n (0 : Fin 1))) (dxOf V0 (ix5 b h w n (0 : Fin 1))) * fOf V0 (ix5 b h w n (0 : Fin 1))) = _
    rw [tau_at, dySlice_at, dxSlice_at, dy_at, dx_at, m_spec, falloff_spec]
    rfl
  | ⟨1, _⟩ =>
    show pieceVX V0 (ix5 b h w n (0 : Fin 1)) = _
    unfold pieceVX
    simp only [bcast_col5_fun]
    show tauOf V0 (ix5 b (0 : Fin 1) (0 : Fin 1) n (0 : Fin 1)) * (mOf V0 (ix5 b h w n (0 : Fin 1)) + fOf V0 (ix5 b h w n (0 : Fin 1))) = _
    rw [tau_at, m_spec, falloff_spec]
    rfl
  | ⟨2, _⟩ =>
    show pieceUY V0 (ix5 b h w n (0 : Fin 1)) = _
    unfold pieceUY
    simp only [bcast_col5_fun]
    show -(tauOf V0 (ix5 b (0 : Fin 1) (0 : Fin 1) n (0 : Fin 1))) * (mOf V0 (ix5 b h w n (0 : Fin 1)) + fOf V0 (ix5 b h w n (0 : Fin 1))) = _
    rw [tau_at, m_spec, falloff_spec]
    rfl
  | ⟨3, _⟩ =>
    show pieceUX V0 (ix5 b h w n (0 : Fin 1)) = _
    unfold pieceUX
    simp only [bcast_col5_fun]
    show -(tauOf V0 (ix5 b (0 : Fin 1) (0 : Fin 1) n (0 : Fin 1))) * (Ideal.div (dyOf V0 (ix5 b h w n (0 : Fin 1))) (dxOf V0 (ix5 b h w n (0 : Fin 1))) * mOf V0 (ix5 b h w n (0 : Fin 1))
        - Ideal.div (dxOf V0 (ix5 b h w n (0 : Fin 1))) (dyOf V0 (ix5 b h w n (0 : Fin 1))) * fOf V0 (ix5 b h w n (0 : Fin 1))) = _
    rw [tau_at, dySlice_at, dxSlice_at, dy_at, dx_at, m_spec, falloff_spec]
    rfl

/-! ## The stack and the sum over the vortex axis -/

/-- Four [4, 256, 256, 64, 1] pieces stacked on the last axis: at (b, h, w, n, k) the stack reads piece k at (b, h, w, n, 0). -/
theorem stack5_at {α : Type} (q0 q1 q2 q3 : S4x256x256x64x1.Idx → α) (b : Fin 4) (h w : Fin 256) (n : Fin 64) (k : Fin 4) :
    concatenate S4x256x256x64x4 4 [⟨S4x256x256x64x1, q0⟩, ⟨S4x256x256x64x1, q1⟩, ⟨S4x256x256x64x1, q2⟩, ⟨S4x256x256x64x1, q3⟩] concatenates_S4x256x256x64x1_S4x256x256x64x1_S4x256x256x64x1_S4x256x256x64x1_S4x256x256x64x4_d4 (ix5 b h w n k)
      = (match k with | ⟨0, _⟩ => q0 | ⟨1, _⟩ => q1 | ⟨2, _⟩ => q2 | ⟨3, _⟩ => q3) (ix5 b h w n (0 : Fin 1)) := by
  have hi : ∀ (k : Fin 4) (c : Fin S4x256x256x64x1.rank), c.cast (rfl : S4x256x256x64x1.rank = S4x256x256x64x4.rank) ≠ (4 : Fin 5) →
      ((ix5 b h w n (0 : Fin 1) : S4x256x256x64x1.Idx) c).val = ((ix5 b h w n k : S4x256x256x64x4.Idx) (c.cast rfl)).val := fun k c hc => by
    match c with
    | ⟨0, _⟩ => rfl
    | ⟨1, _⟩ => rfl
    | ⟨2, _⟩ => rfl
    | ⟨3, _⟩ => rfl
    | ⟨4, _⟩ => exact absurd rfl hc
  match k with
  | ⟨0, _⟩ =>
    exact concatenate_apply_piece (t := S4x256x256x64x4) (4 : Fin 5) [⟨S4x256x256x64x1, q0⟩, ⟨S4x256x256x64x1, q1⟩, ⟨S4x256x256x64x1, q2⟩, ⟨S4x256x256x64x1, q3⟩] concatenates_S4x256x256x64x1_S4x256x256x64x1_S4x256x256x64x1_S4x256x256x64x1_S4x256x256x64x4_d4
      (ix5 b h w n _) 0 (show (0 : Nat) < 4 by decide) S4x256x256x64x1 q0 rfl rfl 0 rfl (ix5 b h w n (0 : Fin 1)) (hi _) rfl
  | ⟨1, _⟩ =>
    exact concatenate_apply_piece (t := S4x256x256x64x4) (4 : Fin 5) [⟨S4x256x256x64x1, q0⟩, ⟨S4x256x256x64x1, q1⟩, ⟨S4x256x256x64x1, q2⟩, ⟨S4x256x256x64x1, q3⟩] concatenates_S4x256x256x64x1_S4x256x256x64x1_S4x256x256x64x1_S4x256x256x64x1_S4x256x256x64x4_d4
      (ix5 b h w n _) 1 (show (1 : Nat) < 4 by decide) S4x256x256x64x1 q1 rfl rfl 1 rfl (ix5 b h w n (0 : Fin 1)) (hi _) rfl
  | ⟨2, _⟩ =>
    exact concatenate_apply_piece (t := S4x256x256x64x4) (4 : Fin 5) [⟨S4x256x256x64x1, q0⟩, ⟨S4x256x256x64x1, q1⟩, ⟨S4x256x256x64x1, q2⟩, ⟨S4x256x256x64x1, q3⟩] concatenates_S4x256x256x64x1_S4x256x256x64x1_S4x256x256x64x1_S4x256x256x64x1_S4x256x256x64x4_d4
      (ix5 b h w n _) 2 (show (2 : Nat) < 4 by decide) S4x256x256x64x1 q2 rfl rfl 2 rfl (ix5 b h w n (0 : Fin 1)) (hi _) rfl
  | ⟨3, _⟩ =>
    exact concatenate_apply_piece (t := S4x256x256x64x4) (4 : Fin 5) [⟨S4x256x256x64x1, q0⟩, ⟨S4x256x256x64x1, q1⟩, ⟨S4x256x256x64x1, q2⟩, ⟨S4x256x256x64x1, q3⟩] concatenates_S4x256x256x64x1_S4x256x256x64x1_S4x256x256x64x1_S4x256x256x64x1_S4x256x256x64x4_d4
      (ix5 b h w n _) 3 (show (3 : Nat) < 4 by decide) S4x256x256x64x1 q3 rfl rfl 3 rfl (ix5 b h w n (0 : Fin 1)) (hi _) rfl

/-- The reference's result term of the argument arrays `V0`. -/
def resultTerm : S4x256x256x4.Idx → EReal :=
  Host.reduceAdd (concatenate S4x256x256x64x4 4 [⟨S4x256x256x64x1, pieceVY V0⟩, ⟨S4x256x256x64x1, pieceVX V0⟩, ⟨S4x256x256x64x1, pieceUY V0⟩, ⟨S4x256x256x64x1, pieceUX V0⟩] concatenates_S4x256x256x64x1_S4x256x256x64x1_S4x256x256x64x1_S4x256x256x64x1_S4x256x256x64x4_d4) (constant (F := Ideal) S_ .f32 0x00000000#32) reducesTo_S4x256x256x64x4_S4x256x256x4_d3 h_S_

/-- The result at (b, h, w, k): the sum over the vortices of the pair's field k (the initial value 0 added to it). -/
theorem result_at (b : Fin 4) (h w : Fin 256) (k : Fin 4) :
    resultTerm V0 (ix4 b h w k)
      = ∑ n : Fin 64, pairField k (vfOf V0 (ix3 b n (0 : Fin 8))) (vfOf V0 (ix3 b n (1 : Fin 8))) (vfOf V0 (ix3 b n (2 : Fin 8))) (vfOf V0 (ix3 b n (3 : Fin 8))) (vfOf V0 (ix3 b n (6 : Fin 8))) (vfOf V0 (ix3 b n (7 : Fin 8))) (ptsOf V0 (ix4 b h w (0 : Fin 2))) (ptsOf V0 (ix4 b h w (1 : Fin 2))) := by
  unfold resultTerm
  have hR : S4x256x256x64x4.Reduces [3] S4x256x256x4 := by decide
  refine (Ideal.hostReduceAdd_single reducesTo_S4x256x256x64x4_S4x256x256x4_d3 hR
    (concatenate S4x256x256x64x4 4 [⟨S4x256x256x64x1, pieceVY V0⟩, ⟨S4x256x256x64x1, pieceVX V0⟩, ⟨S4x256x256x64x1, pieceUY V0⟩, ⟨S4x256x256x64x1, pieceUX V0⟩] concatenates_S4x256x256x64x1_S4x256x256x64x1_S4x256x256x64x1_S4x256x256x64x1_S4x256x256x64x4_d4)
    (Ideal.ofBits .f32 0x00000000#32) (ix4 b h w k)).trans ?_
  rw [Ideal.ofBits_zero_f32, zero_add]
  show ∑ n : Fin 64, concatenate S4x256x256x64x4 4 [⟨S4x256x256x64x1, pieceVY V0⟩, ⟨S4x256x256x64x1, pieceVX V0⟩, ⟨S4x256x256x64x1, pieceUY V0⟩, ⟨S4x256x256x64x1, pieceUX V0⟩] concatenates_S4x256x256x64x1_S4x256x256x64x1_S4x256x256x64x1_S4x256x256x64x1_S4x256x256x64x4_d4 (hR.lift (ix4 b h w k) n) = _
  refine Finset.sum_congr rfl fun n _ => ?_
  have e : hR.lift (ix4 b h w k) n = ix5 b h w n k := funext fun a => by
    match a with
    | ⟨0, _⟩ => rfl
    | ⟨1, _⟩ => rfl
    | ⟨2, _⟩ => rfl
    | ⟨3, _⟩ => rfl
    | ⟨4, _⟩ => rfl
  rw [e]
  exact (stack5_at _ _ _ _ b h w n k).trans (piece_pair V0 k b h w n)

/-- THE REFERENCE'S RESULT is the specification's G of the two argument arrays. -/
theorem result_eq : resultTerm V0 = G (vfOf V0) (ptsOf V0) := by
  funext i
  obtain ⟨b, h, w, k, rfl⟩ : ∃ (b : Fin 4) (h w : Fin 256) (k : Fin 4), i = ix4 b h w k := ⟨i 0, i 1, i 2, i 3, eq_ix4 i⟩
  exact result_at V0 b h w k

end Cert.Falloff.Ref

end
-- ==== Proof.Claims.lean ====
/-
  The five conjuncts of the claim.

  The three frames are the generated ones: the two kernels' frame runs, and the reference's run with its result
  dropped. The idealization rewrote no operation, so the conjunct about it is `True`. For the equality of results, both
  idealized programs end with their result array at ONE function of the argument arrays, the specification's G: the
  kernel's run by its blocks (each point writes block (b, q) of G, and the blocks fill the array), the reference's run
  by reading its term at an index; the two memories agree on the arguments, so the two values of G are the same. No step
  uses that the inputs are finite.
-/
import proofs.«152878_j83434034692737_1_alg».proof.Defs
import proofs.«152878_j83434034692737_1_alg».proof.Proof.Gen.Kernel.Frame
import proofs.«152878_j83434034692737_1_alg».proof.Proof.Gen.KernelIdeal.Frame
import proofs.«152878_j83434034692737_1_alg».proof.Proof.Gen.KernelIdeal.Value
import proofs.«152878_j83434034692737_1_alg».proof.Proof.Gen.ReferenceIdeal.Run
import proofs.«152878_j83434034692737_1_alg».proof.Proof.Gen.Pre_finite_inputs
import proofs.«152878_j83434034692737_1_alg».proof.Proof.KernelArray
import proofs.«152878_j83434034692737_1_alg».proof.Proof.RefFields

noncomputable section

namespace Cert.Proof.Conjuncts

open Idealize.ShloMosaic Idealize.ShloMosaic.TcCoe Idealize.SL.Sem Idealize.ShloMosaic.StableHlo Cert.Falloff

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with their result at G of the argument arrays, which agree. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Falloff.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.Falloff.Ref.result_eq (launchContents m' c)).trans ?_
  show G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

end Cert.Proof.Conjuncts

end
-- ==== Proof.lean ====
/-
  The proof of `Cert.Claim`: a kernel that, for every pixel of a [4, 256, 256] grid, sums over the 64 vortices of the
  pixel's batch row the four components of a velocity-gradient field with a Gaussian-times-exponential falloff, against
  its array-at-a-time reference.

  Both programs evaluate, for each (vortex, pixel) pair, the same formula with the same operations in the same order
  (Proof/Spec.lean writes it once), and add the 64 results; they differ in how the data is laid out while they do it.
  The kernel takes 16 pixel rows of one batch row at a time, holds the vortex quantities as columns over the vortex axis
  and the pixel coordinates as planes, sums over the leading vortex axis and stacks the four sums; the reference holds
  everything as five-axis arrays over (batch, row, column, vortex, ·), takes the squared distance as a sum over an axis of
  extent two, stacks the four fields and sums over the vortex axis from the initial value 0. At the extended reals a sum
  over an axis is the sum of its terms in any order, 0 + a = a and 0 − a = −a, so each program's result at an index is
  the same 64-term sum (Proof/KernelLoads.lean and Proof/KernelFields.lean for the kernel's block, Proof/KernelArray.lean
  for the blocks filling the array, Proof/RefLoads.lean and Proof/RefFields.lean for the reference), and the two results
  are one function of arguments that agree (Proof/Claims.lean).
-/
import proofs.«152878_j83434034692737_1_alg».proof.Defs
import proofs.«152878_j83434034692737_1_alg».proof.Proof.Gen.Kernel
import proofs.«152878_j83434034692737_1_alg».proof.Proof.Gen.Kernel.Skeleton
import proofs.«152878_j83434034692737_1_alg».proof.Proof.Gen.Kernel.Launch
import proofs.«152878_j83434034692737_1_alg».proof.Proof.Gen.Kernel.Points
import proofs.«152878_j83434034692737_1_alg».proof.Proof.Gen.Kernel.Frame
import proofs.«152878_j83434034692737_1_alg».proof.Proof.Gen.KernelIdeal
import proofs.«152878_j83434034692737_1_alg».proof.Proof.Gen.KernelIdeal.Skeleton
import proofs.«152878_j83434034692737_1_alg».proof.Proof.Gen.KernelIdeal.Launch
import proofs.«152878_j83434034692737_1_alg».proof.Proof.Gen.KernelIdeal.Points
import proofs.«152878_j83434034692737_1_alg».proof.Proof.Gen.KernelIdeal.Frame
import proofs.«152878_j83434034692737_1_alg».proof.Proof.Gen.ReferenceIdeal
import proofs.«152878_j83434034692737_1_alg».proof.Proof.Gen.KernelIdeal.Value
import proofs.«152878_j83434034692737_1_alg».proof.Proof.Gen.ReferenceIdeal.Run
import proofs.«152878_j83434034692737_1_alg».proof.Proof.Gen.Pre_finite_inputs
import proofs.«152878_j83434034692737_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Conjuncts.frame_kernel, Conjuncts.frame_kernelIdeal, Conjuncts.frame_referenceIdeal, Conjuncts.preserves,
    Conjuncts.algebraic⟩

end Cert.Proof

end
